-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x16x16 : Shape := ⟨5, ![8, 64, 64, 16, 16]⟩
abbrev S_ : Shape := ⟨0, ![]⟩

class Facts : Prop where
  bcast_S_S8x64x64x16x16 : S_.BroadcastsInDim S8x64x64x16x16 (![] : Fin 0 → Fin S8x64x64x16x16.rank)
  reducesTo_S8x64x64x16x16_S_d0_1_2_3_4 : S8x64x64x16x16.ReducesTo [0, 1, 2, 3, 4] S_
  h_S_ : 0 < S_.numel

variable [Facts]

def fn {F : FTy → Type} [FloatOps F] (main_arg0 : FVec F S8x64x64x16x16 .f32) : IVec S_ 1 :=
  let main_v0 : FVec F S8x64x64x16x16 .f32 := Host.absf main_arg0
  let main_cst : FVec F S_ .f32 := constant S_ .f32 0x7F800000#32
  let main_v1 : FVec F S8x64x64x16x16 .f32 := broadcastInDim S8x64x64x16x16 ![] bcast_S_S8x64x64x16x16 main_cst
  let main_v2 : IVec S8x64x64x16x16 1 := cmpf .olt main_v0 main_v1
  let main_c : IVec S_ 1 := constantI S_ 1 1#1
  let main_v3 : IVec S_ 1 := (fun x v => Host.reduce IntOp.andi x v reducesTo_S8x64x64x16x16_S_d0_1_2_3_4 h_S_) main_v2 main_c
  main_v3
-- ==== Kernel.lean ====
abbrev S8x64x64x16x16 : Shape := ⟨5, ![8, 64, 64, 16, 16]⟩
abbrev S8x64x64x256 : Shape := ⟨4, ![8, 64, 64, 256]⟩
abbrev S8x62x62x2304 : Shape := ⟨4, ![8, 62, 62, 2304]⟩
abbrev S1x64x64x256 : Shape := ⟨4, ![1, 64, 64, 256]⟩
abbrev S1x16x62x2304 : Shape := ⟨4, ![1, 16, 62, 2304]⟩
abbrev S1x16x64x256 : Shape := ⟨4, ![1, 16, 64, 256]⟩
abbrev S16x64x256 : Shape := ⟨3, ![16, 64, 256]⟩
abbrev S16x62x256 : Shape := ⟨3, ![16, 62, 256]⟩
abbrev S1x16x62x256 : Shape := ⟨4, ![1, 16, 62, 256]⟩
abbrev S1x14x64x256 : Shape := ⟨4, ![1, 14, 64, 256]⟩
abbrev S14x64x256 : Shape := ⟨3, ![14, 64, 256]⟩
abbrev S14x62x256 : Shape := ⟨3, ![14, 62, 256]⟩
abbrev S1x14x62x256 : Shape := ⟨4, ![1, 14, 62, 256]⟩
abbrev S496x8928x16 : Shape := ⟨3, ![496, 8928, 16]⟩

abbrev nBuf : Space → Nat
  | .hbm => 4
  | .vmem => 4
  | .smem => 0
  | _ => 0

abbrev bufTy : (tb : Table) → Fin (tcTables nBuf tb) → BufTy
  | .hbm, ⟨0, _⟩ => ⟨S8x64x64x16x16, .f32⟩
  | .hbm, ⟨1, _⟩ => ⟨S8x64x64x256, .f32⟩
  | .hbm, ⟨2, _⟩ => ⟨S8x62x62x2304, .f32⟩
  | .hbm, ⟨3, _⟩ => ⟨S496x8928x16, .f32⟩
  | .local _ .vmem, ⟨0, _⟩ => ⟨S1x64x64x256, .f32⟩
  | .local _ .vmem, ⟨1, _⟩ => ⟨S1x64x64x256, .f32⟩
  | .local _ .vmem, ⟨2, _⟩ => ⟨S1x16x62x2304, .f32⟩
  | .local _ .vmem, ⟨3, _⟩ => ⟨S1x16x62x2304, .f32⟩
  | _, _ => ⟨S8x64x64x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32 : BitVec 32 := 3#32
  let v0 : BitVec 1 := Scalar.cmpi .eq arg1 c3_i32
  let v_true : BitVec 1 := 1#1
  let v1 : BitVec 1 := Scalar.xori v0 v_true
  let v2 : BitVec 32 := Scalar.extui v1
  let c0_i32 : BitVec 32 := 0#32
  let v3 : BitVec 1 := Scalar.cmpi .ne v2 c0_i32
  v3

def k0_off1 (i : grid0.Coords) (c0_i32_1 : BitVec 32) : Fin 4 → Nat :=
  let c0 : Index := 0#32
  let arg1 : BitVec 32 := BitVec.ofNat 32 (i 1).val
  let c16_i32 : BitVec 32 := 16#32
  let v6 : BitVec 32 := Scalar.muli arg1 c16_i32
  let v7 : BitVec 32 := Scalar.addi v6 c0_i32_1
  let v8 : Index := Scalar.indexCast v7
  let c0_2 : Index := 0#32
  let c0_3 : Index := 0#32
  ![0, v8.toNat, 0, 0]
def k0_cond2 (i : grid0.Coords) : BitVec 1 :=
  let arg1 : BitVec 32 := BitVec.ofNat 32 (i 1).val
  let c3_i32 : BitVec 32 := 3#32
  let v0 : BitVec 1 := Scalar.cmpi .eq arg1 c3_i32
  let v4 : BitVec 32 := Scalar.extui v0
  let c0_i32_0 : BitVec 32 := 0#32
  let v5 : BitVec 1 := Scalar.cmpi .ne v4 c0_i32_0
  v5

def k0_off2 (i : grid0.Coords) (c0_i32_1 : BitVec 32) : Fin 4 → Nat :=
  let c0 : Index := 0#32
  let arg1 : BitVec 32 := BitVec.ofNat 32 (i 1).val
  let c16_i32 : BitVec 32 := 16#32
  let v6 : BitVec 32 := Scalar.muli arg1 c16_i32
  let v7 : BitVec 32 := Scalar.addi v6 c0_i32_1
  let v8 : Index := Scalar.indexCast v7
  let c0_2 : Index := 0#32
  let c0_3 : Index := 0#32
  ![0, v8.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x62x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x64x64x16x16_S8x64x64x256 : S8x64x64x16x16.ShapeCasts S8x64x64x256
  h_S1x16x64x256 : 0 < S1x16x64x256.numel
  shapeCasts_S1x16x64x256_S16x64x256 : S1x16x64x256.ShapeCasts S16x64x256
  slices_S16x64x256_o0_0_0_S16x62x256 : S16x64x256.Slices ![0, 0, 0] S16x62x256
  inb_S1x16x62x2304_S1x16x62x256_0_0_0_0 : ∀ a, (![0, 0, 0, 0] : Fin 4 → Nat) a + S1x16x62x256.size a ≤ S1x16x62x2304.size a
  h_S1x16x62x256 : 0 < S1x16x62x256.numel
  shapeCasts_S1x16x62x256_S16x62x256 : S1x16x62x256.ShapeCasts S16x62x256
  shapeCasts_S16x62x256_S1x16x62x256 : S16x62x256.ShapeCasts S1x16x62x256
  slices_S16x64x256_o0_1_0_S16x62x256 : S16x64x256.Slices ![0, 1, 0] S16x62x256
  inb_S1x16x62x2304_S1x16x62x256_0_0_0_256 : ∀ a, (![0, 0, 0, 256] : Fin 4 → Nat) a + S1x16x62x256.size a ≤ S1x16x62x2304.size a
  slices_S16x64x256_o0_2_0_S16x62x256 : S16x64x256.Slices ![0, 2, 0] S16x62x256
  inb_S1x16x62x2304_S1x16x62x256_0_0_0_512 : ∀ a, (![0, 0, 0, 512] : Fin 4 → Nat) a + S1x16x62x256.size a ≤ S1x16x62x2304.size a
  inb_S1x16x62x2304_S1x16x62x256_0_0_0_768 : ∀ a, (![0, 0, 0, 768] : Fin 4 → Nat) a + S1x16x62x256.size a ≤ S1x16x62x2304.size a
  inb_S1x16x62x2304_S1x16x62x256_0_0_0_1024 : ∀ a, (![0, 0, 0, 1024] : Fin 4 → Nat) a + S1x16x62x256.size a ≤ S1x16x62x2304.size a
  inb_S1x16x62x2304_S1x16x62x256_0_0_0_1280 : ∀ a, (![0, 0, 0, 1280] : Fin 4 → Nat) a + S1x16x62x256.size a ≤ S1x16x62x2304.size a
  inb_S1x16x62x2304_S1x16x62x256_0_0_0_1536 : ∀ a, (![0, 0, 0, 1536] : Fin 4 → Nat) a + S1x16x62x256.size a ≤ S1x16x62x2304.size a
  inb_S1x16x62x2304_S1x16x62x256_0_0_0_1792 : ∀ a, (![0, 0, 0, 1792] : Fin 4 → Nat) a + S1x16x62x256.size a ≤ S1x16x62x2304.size a
  inb_S1x16x62x2304_S1x16x62x256_0_0_0_2048 : ∀ a, (![0, 0, 0, 2048] : Fin 4 → Nat) a + S1x16x62x256.size a ≤ S1x16x62x2304.size a
  h_S1x14x64x256 : 0 < S1x14x64x256.numel
  shapeCasts_S1x14x64x256_S14x64x256 : S1x14x64x256.ShapeCasts S14x64x256
  slices_S14x64x256_o0_0_0_S14x62x256 : S14x64x256.Slices ![0, 0, 0] S14x62x256
  inb_S1x16x62x2304_S1x14x62x256_0_0_0_0 : ∀ a, (![0, 0, 0, 0] : Fin 4 → Nat) a + S1x14x62x256.size a ≤ S1x16x62x2304.size a
  h_S1x14x62x256 : 0 < S1x14x62x256.numel
  shapeCasts_S1x14x62x256_S14x62x256 : S1x14x62x256.ShapeCasts S14x62x256
  shapeCasts_S14x62x256_S1x14x62x256 : S14x62x256.ShapeCasts S1x14x62x256
  slices_S14x64x256_o0_1_0_S14x62x256 : S14x64x256.Slices ![0, 1, 0] S14x62x256
  inb_S1x16x62x2304_S1x14x62x256_0_0_0_256 : ∀ a, (![0, 0, 0, 256] : Fin 4 → Nat) a + S1x14x62x256.size a ≤ S1x16x62x2304.size a
  slices_S14x64x256_o0_2_0_S14x62x256 : S14x64x256.Slices ![0, 2, 0] S14x62x256
  inb_S1x16x62x2304_S1x14x62x256_0_0_0_512 : ∀ a, (![0, 0, 0, 512] : Fin 4 → Nat) a + S1x14x62x256.size a ≤ S1x16x62x2304.size a
  inb_S1x16x62x2304_S1x14x62x256_0_0_0_768 : ∀ a, (![0, 0, 0, 768] : Fin 4 → Nat) a + S1x14x62x256.size a ≤ S1x16x62x2304.size a
  inb_S1x16x62x2304_S1x14x62x256_0_0_0_1024 : ∀ a, (![0, 0, 0, 1024] : Fin 4 → Nat) a + S1x14x62x256.size a ≤ S1x16x62x2304.size a
  inb_S1x16x62x2304_S1x14x62x256_0_0_0_1280 : ∀ a, (![0, 0, 0, 1280] : Fin 4 → Nat) a + S1x14x62x256.size a ≤ S1x16x62x2304.size a
  inb_S1x16x62x2304_S1x14x62x256_0_0_0_1536 : ∀ a, (![0, 0, 0, 1536] : Fin 4 → Nat) a + S1x14x62x256.size a ≤ S1x16x62x2304.size a
  inb_S1x16x62x2304_S1x14x62x256_0_0_0_1792 : ∀ a, (![0, 0, 0, 1792] : Fin 4 → Nat) a + S1x14x62x256.size a ≤ S1x16x62x2304.size a
  inb_S1x16x62x2304_S1x14x62x256_0_0_0_2048 : ∀ a, (![0, 0, 0, 2048] : Fin 4 → Nat) a + S1x14x62x256.size a ≤ S1x16x62x2304.size a
  shapeCasts_S8x62x62x2304_S496x8928x16 : S8x62x62x2304.ShapeCasts S496x8928x16
  hrank0 : 0 < grid0.rank
  k0_off1_inb : ∀ i : grid0.Coords, ∀ (k0_h1 : k0_cond1 i = 1#1), ∀ (r : Fin 3), ∀ a, (k0_off1 i (BitVec.ofNat 32 r.val)) a + S1x16x64x256.size a ≤ S1x64x64x256.size a
  k0_off2_inb : ∀ i : grid0.Coords, ∀ (k0_h2 : k0_cond2 i = 1#1), ∀ (r : Fin 3), ∀ a, (k0_off2 i (BitVec.ofNat 32 r.val)) a + S1x14x64x256.size a ≤ S1x64x64x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S8x64x64x256.size a
  hwx0_0 : ∀ i : grid0.Coords, EltTy.bits .f32 = 32 ∨ (Rect.block (s := S8x64x64x256) S1x64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x16x62x2304.size a < S8x62x62x2304.size a
  hwx0_1 : ∀ i : grid0.Coords, EltTy.bits .f32 = 32 ∨ (Rect.unit (s := S8x62x62x2304) (fun a => cc0_transform_1 i a * S1x16x62x2304.size a) (fun a => (Pipeline.Clip.of (cc0_transform_1 i a) (S1x16x62x2304.size a) (S8x62x62x2304.size a)).extent (S1x16x62x2304.size a)) fun a => Pipeline.Clip.inb (Pipeline.Clip.ok_of (hstart0_1 i a))).WholeWords (EltTy.packing .f32)
  hwxs0_1 : ∀ i : grid0.Coords, EltTy.bits .f32 = 32 ∨ (Rect.unit (s := S1x16x62x2304) (fun _ => 0) (fun a => (Pipeline.Clip.of (cc0_transform_1 i a) (S1x16x62x2304.size a) (S8x62x62x2304.size a)).extent (S1x16x62x2304.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v0) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S1x16x62x2304.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S8x64x64x16x16 : Shape := ⟨5, ![8, 64, 64, 16, 16]⟩
abbrev S62x3 : Shape := ⟨2, ![62, 3]⟩
abbrev S_ : Shape := ⟨0, ![]⟩
abbrev S62x3x1 : Shape := ⟨3, ![62, 3, 1]⟩
abbrev S1 : Shape := ⟨1, ![1]⟩
abbrev S1x1x1 : Shape := ⟨3, ![1, 1, 1]⟩
abbrev S8x62x3x64x16x16 : Shape := ⟨6, ![8, 62, 3, 64, 16, 16]⟩
abbrev S8x62x3x62x3x16x16 : Shape := ⟨7, ![8, 62, 3, 62, 3, 16, 16]⟩
abbrev S8x62x62x3x3x16x16 : Shape := ⟨7, ![8, 62, 62, 3, 3, 16, 16]⟩
abbrev S496x8928x16 : Shape := ⟨3, ![496, 8928, 16]⟩

abbrev nBuf : Space → Nat
  | .hbm => 51
  | .vmem => 0
  | .smem => 0
  | _ => 0

abbrev bufTy : (tb : Table) → Fin (tcTables nBuf tb) → BufTy
  | .hbm, ⟨0, _⟩ => ⟨S8x64x64x16x16, .f32⟩
  | .hbm, ⟨1, _⟩ => ⟨S62x3, .i32⟩
  | .hbm, ⟨2, _⟩ => ⟨S62x3, .i32⟩
  | .hbm, ⟨3, _⟩ => ⟨S_, .i32⟩
  | .hbm, ⟨4, _⟩ => ⟨S62x3, .i32⟩
  | .hbm, ⟨5, _⟩ => ⟨S62x3, .i1⟩
  | .hbm, ⟨6, _⟩ => ⟨S_, .i32⟩
  | .hbm, ⟨7, _⟩ => ⟨S62x3, .i32⟩
  | .hbm, ⟨8, _⟩ => ⟨S62x3, .i32⟩
  | .hbm, ⟨9, _⟩ => ⟨S62x3, .i32⟩
  | .hbm, ⟨10, _⟩ => ⟨S62x3x1, .i32⟩
  | .hbm, ⟨11, _⟩ => ⟨S1, .i32⟩
  | .hbm, ⟨12, _⟩ => ⟨S_, .i32⟩
  | .hbm, ⟨13, _⟩ => ⟨S62x3x1, .i32⟩
  | .hbm, ⟨14, _⟩ => ⟨S62x3x1, .i1⟩
  | .hbm, ⟨15, _⟩ => ⟨S1x1x1, .i32⟩
  | .hbm, ⟨16, _⟩ => ⟨S62x3x1, .i32⟩
  | .hbm, ⟨17, _⟩ => ⟨S62x3x1, .i1⟩
  | .hbm, ⟨18, _⟩ => ⟨S62x3x1, .i1⟩
  | .hbm, ⟨19, _⟩ => ⟨S_, .i1⟩
  | .hbm, ⟨20, _⟩ => ⟨S62x3, .i1⟩
  | .hbm, ⟨21, _⟩ => ⟨S8x62x3x64x16x16, .f32⟩
  | .hbm, ⟨22, _⟩ => ⟨S8x62x3x64x16x16, .i1⟩
  | .hbm, ⟨23, _⟩ => ⟨S_, .f32⟩
  | .hbm, ⟨24, _⟩ => ⟨S8x62x3x64x16x16, .f32⟩
  | .hbm, ⟨25, _⟩ => ⟨S8x62x3x64x16x16, .f32⟩
  | .hbm, ⟨26, _⟩ => ⟨S_, .i32⟩
  | .hbm, ⟨27, _⟩ => ⟨S62x3, .i32⟩
  | .hbm, ⟨28, _⟩ => ⟨S62x3, .i1⟩
  | .hbm, ⟨29, _⟩ => ⟨S_, .i32⟩
  | .hbm, ⟨30, _⟩ => ⟨S62x3, .i32⟩
  | .hbm, ⟨31, _⟩ => ⟨S62x3, .i32⟩
  | .hbm, ⟨32, _⟩ => ⟨S62x3, .i32⟩
  | .hbm, ⟨33, _⟩ => ⟨S62x3x1, .i32⟩
  | .hbm, ⟨34, _⟩ => ⟨S1, .i32⟩
  | .hbm, ⟨35, _⟩ => ⟨S_, .i32⟩
  | .hbm, ⟨36, _⟩ => ⟨S62x3x1, .i32⟩
  | .hbm, ⟨37, _⟩ => ⟨S62x3x1, .i1⟩
  | .hbm, ⟨38, _⟩ => ⟨S1x1x1, .i32⟩
  | .hbm, ⟨39, _⟩ => ⟨S62x3x1, .i32⟩
  | .hbm, ⟨40, _⟩ => ⟨S62x3x1, .i1⟩
  | .hbm, ⟨41, _⟩ => ⟨S62x3x1, .i1⟩
  | .hbm, ⟨42, _⟩ => ⟨S_, .i1⟩
  | .hbm, ⟨43, _⟩ => ⟨S62x3, .i1⟩
  | .hbm, ⟨44, _⟩ => ⟨S8x62x3x62x3x16x16, .f32⟩
  | .hbm, ⟨45, _⟩ => ⟨S8x62x3x62x3x16x16, .i1⟩
  | .hbm, ⟨46, _⟩ => ⟨S_, .f32⟩
  | .hbm, ⟨47, _⟩ => ⟨S8x62x3x62x3x16x16, .f32⟩
  | .hbm, ⟨48, _⟩ => ⟨S8x62x3x62x3x16x16, .f32⟩
  | .hbm, ⟨49, _⟩ => ⟨S8x62x62x3x3x16x16, .f32⟩
  | .hbm, ⟨50, _⟩ => ⟨S496x8928x16, .f32⟩
  | _, _ => ⟨S8x64x64x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩
abbrev main_v3 : Ref sig .tc := ⟨.hbm, 50, rfl⟩

abbrev nD : Nat := 1
abbrev τ : Topo := Topo.v7x

variable {F : FTy → Type} [FloatOps F]

class Facts₀ : Prop where
  bcast_S_S62x3 : S_.BroadcastsInDim S62x3 (![] : Fin 0 → Fin S62x3.rank)
  bcast_S62x3_S62x3x1_0_1 : S62x3.BroadcastsInDim S62x3x1 (![0, 1] : Fin 2 → Fin S62x3x1.rank)
  bcast_S_S62x3x1 : S_.BroadcastsInDim S62x3x1 (![] : Fin 0 → Fin S62x3x1.rank)
  bcast_S1_S1x1x1_2 : S1.BroadcastsInDim S1x1x1 (![2] : Fin 1 → Fin S1x1x1.rank)
  bcast_S1x1x1_S62x3x1_0_1_2 : S1x1x1.BroadcastsInDim S62x3x1 (![0, 1, 2] : Fin 3 → Fin S62x3x1.rank)
  reducesTo_S62x3x1_S62x3_d2 : S62x3x1.ReducesTo [2] S62x3
  h_S_ : 0 < S_.numel
  bcast_S62x3_S8x62x3x64x16x16_1_2 : S62x3.BroadcastsInDim S8x62x3x64x16x16 (![1, 2] : Fin 2 → Fin S8x62x3x64x16x16.rank)
  bcast_S_S8x62x3x64x16x16 : S_.BroadcastsInDim S8x62x3x64x16x16 (![] : Fin 0 → Fin S8x62x3x64x16x16.rank)
  bcast_S62x3_S8x62x3x62x3x16x16_3_4 : S62x3.BroadcastsInDim S8x62x3x62x3x16x16 (![3, 4] : Fin 2 → Fin S8x62x3x62x3x16x16.rank)
  bcast_S_S8x62x3x62x3x16x16 : S_.BroadcastsInDim S8x62x3x62x3x16x16 (![] : Fin 0 → Fin S8x62x3x62x3x16x16.rank)
  transposes_S8x62x3x62x3x16x16_S8x62x62x3x3x16x16_0_1_3_2_4_5_6 : S8x62x3x62x3x16x16.Transposes [0, 1, 3, 2, 4, 5, 6] S8x62x62x3x3x16x16
  shapeCasts_S8x62x62x3x3x16x16_S496x8928x16 : S8x62x62x3x3x16x16.ShapeCasts S496x8928x16
  gather_S8x64x64x16x16_S62x3x1_S8x62x3x64x16x16_0345_1_n_n_1_2_81641616_wf : GatherDims.WF S8x64x64x16x16 S62x3x1 S8x62x3x64x16x16 [0, 3, 4, 5] [1] [] [1] [] 2 ![8, 1, 64, 16, 16]
  gather_S8x62x3x64x16x16_S62x3x1_S8x62x3x62x3x16x16_01256_3_n_n_3_2_862311616_wf : GatherDims.WF S8x62x3x64x16x16 S62x3x1 S8x62x3x62x3x16x16 [0, 1, 2, 5, 6] [3] [] [3] [] 2 ![8, 62, 3, 1, 16, 16]

variable [Facts₀]

def gather_S8x64x64x16x16_S62x3x1_S8x62x3x64x16x16_0345_1_n_n_1_2_81641616 : GatherDims S8x64x64x16x16 S62x3x1 S8x62x3x64x16x16 where
  offsetDims := [0, 3, 4, 5]
  collapsedSliceDims := [1]
  operandBatchingDims := []
  startIndicesBatchingDims := []
  startIndexMap := [1]
  indexVectorDim := 2
  sliceSizes := ![8, 1, 64, 16, 16]
  wf := gather_S8x64x64x16x16_S62x3x1_S8x62x3x64x16x16_0345_1_n_n_1_2_81641616_wf
def gather_S8x62x3x64x16x16_S62x3x1_S8x62x3x62x3x16x16_01256_3_n_n_3_2_862311616 : GatherDims S8x62x3x64x16x16 S62x3x1 S8x62x3x62x3x16x16 where
  offsetDims := [0, 1, 2, 5, 6]
  collapsedSliceDims := [3]
  operandBatchingDims := []
  startIndicesBatchingDims := []
  startIndexMap := [3]
  indexVectorDim := 2
  sliceSizes := ![8, 62, 3, 1, 16, 16]
  wf := gather_S8x62x3x64x16x16_S62x3x1_S8x62x3x62x3x16x16_01256_3_n_n_3_2_862311616_wf

class Facts : Prop extends Facts₀ where

variable [Facts]
-- ==== Proof.Slab.lean ====
/-
  Index arithmetic shared by the two control cases of the kernel body.

  One grid point handles one batch b and a band of sixteen output rows starting at 16·q. Its input block is the
  batch's whole slab X of shape [1, 64, 64, 256] (row, column, merged capsule·pose lane); its output block has shape
  [1, 16, 62, 2304], the last axis being nine lane groups of 256, group 3·kh + kw holding the window entry (kh, kw).
  So the output block at (0, r, ow, l) is X (0, 16·q + r + l / 768, ow + (l / 256) % 3, l % 256): `blockFn`.
  The body produces it in nine pieces: three row bands of the slab (kh = 0, 1, 2), each sliced at three column
  offsets (kw = 0, 1, 2). `band_apply` reads one such piece at an index; `cover9` says the nine lane groups cover
  every row the band stores.
-/
import Idealize.ShloMosaic.PureOps
import Idealize.ShloMosaic.Lib.ValueIdx
import Idealize.ShloMosaic.Lib.Pipeline.Value
import Idealize.ShloMosaic.Lib.Pipeline.FrameBody

namespace Cert.Slab

open Idealize.ShloMosaic Idealize.ShloMosaic.ValueIdx

/-- The output block of the band starting at row 16·q, as a function of the batch's slab (the moduli only make the
    function total: wherever the body stores, no index wraps). -/
def blockFn {α : Type} (X : (⟨4, ![1, 64, 64, 256]⟩ : Shape).Idx → α) (q : Nat) : (⟨4, ![1, 16, 62, 2304]⟩ : Shape).Idx → α :=
  fun j => X (ix4 (0 : Fin 1)
    (⟨(16 * q + (j 1).val + (j 3).val / 768) % 64, Nat.mod_lt _ (by decide)⟩ : Fin 64)
    (⟨((j 2).val + (j 3).val / 256 % 3) % 64, Nat.mod_lt _ (by decide)⟩ : Fin 64)
    (⟨(j 3).val % 256, Nat.mod_lt _ (by decide)⟩ : Fin 256))

/-- The block function at j is the slab at any index with the coordinates the definition names. -/
theorem blockFn_eq {α : Type} (X : (⟨4, ![1, 64, 64, 256]⟩ : Shape).Idx → α) (q : Nat) (j : (⟨4, ![1, 16, 62, 2304]⟩ : Shape).Idx)
    (k : (⟨4, ![1, 64, 64, 256]⟩ : Shape).Idx) (h0 : (k 0).val = 0)
    (h1 : (k 1).val = (16 * q + (j 1).val + (j 3).val / 768) % 64)
    (h2 : (k 2).val = ((j 2).val + (j 3).val / 256 % 3) % 64) (h3 : (k 3).val = (j 3).val % 256) :
    blockFn X q j = X k := by
  unfold blockFn
  refine congrArg X ?_
  funext a
  match a with
  | ⟨0, _⟩ => exact Fin.ext h0.symm
  | ⟨1, _⟩ => exact Fin.ext h1.symm
  | ⟨2, _⟩ => exact Fin.ext h2.symm
  | ⟨3, _⟩ => exact Fin.ext h3.symm

/-- The part of the output block inside the array has fourteen rows on the last band and sixteen on the others. -/
theorem split_bound (T Y1 : Nat) (h : Y1 < if T % 4 = 3 then 14 else 16) : Y1 < 16 ∧ (T % 4 = 3 → Y1 < 14) := by
  split at h <;> omega

/-- The arithmetic of one grid point T = 4·b + q: the entry (Y0, Y1, Y2, Y3) of the output block sits in the array at
    (b, 16·q + Y1, Y2, Y3), and the slab entry the block function reads for it sits in the input array at
    (b, 16·q + Y1 + Y3 / 768, Y2 + (Y3 / 256) % 3, Y3 % 256), where the filled array reads too. -/
theorem point_arith (T q Y0 Y1 Y2 Y3 : Nat) (hq : q = T % 4) (hY0 : Y0 < 1) (hY1 : Y1 < 16 ∧ (T % 4 = 3 → Y1 < 14))
    (hY2 : Y2 < 62) (hY3 : Y3 < 2304) :
    (T / 4 * 1 + 1 * 0 = T / 4 * 1 + 1 * Y0)
    ∧ (0 * 64 + 1 * ((16 * q + Y1 + Y3 / 768) % 64) = (T % 4 * 16 + 1 * Y1) + (0 * 2304 + 1 * Y3) / 768)
    ∧ (0 * 64 + 1 * ((Y2 + Y3 / 256 % 3) % 64) = (0 * 62 + 1 * Y2) + (0 * 2304 + 1 * Y3) / 256 % 3)
    ∧ (0 * 256 + 1 * (Y3 % 256) = (0 * 2304 + 1 * Y3) % 256) := by
  obtain ⟨h16, h14⟩ := hY1
  subst hq
  refine ⟨by omega, ?_, by omega, by omega⟩
  omega

/-- The entry (I0, I1, I2, I3) of the filled array lies in the block of the point T = 4·I0 + I1 / 16. -/
theorem cover_arith (T I0 I1 I2 I3 : Nat) (hT : T = 4 * I0 + I1 / 16) (h0 : I0 < 8) (h1 : I1 < 62) (h2 : I2 < 62) (h3 : I3 < 2304) :
    (T / 4 ≤ I0 ∧ I0 < T / 4 + 1) ∧ (T % 4 * 16 ≤ I1 ∧ I1 < T % 4 * 16 + (if T % 4 = 3 then 14 else 16))
    ∧ (0 ≤ I2 ∧ I2 < 0 + 62) ∧ (0 ≤ I3 ∧ I3 < 0 + 2304) := by
  subst hT
  refine ⟨by omega, ?_, by omega, by omega⟩
  split <;> omega

/-- A band index below four that is not among the first three is the last. -/
theorem band_last (n : Nat) (h4 : n < 4) (h : ¬ n ≤ 2) : n = 3 := by omega
/-- A band index among the first three is not the last. -/
theorem band_not_last (n : Nat) (h : n ≤ 2) : n ≠ 3 := by omega

/-- A band of R rows of the slab, with its unit axis dropped, sliced at column offset kw and given its unit axis
    back, reads at (0, r, ow, l) the band at (0, r, ow + kw, l). -/
theorem band_apply {α : Type} (R kw : Nat) (hkw : kw + 62 ≤ 64) (v : (⟨4, ![1, R, 64, 256]⟩ : Shape).Idx → α)
    (h1 : (⟨4, ![1, R, 64, 256]⟩ : Shape).ShapeCasts ⟨3, ![R, 64, 256]⟩)
    (h2 : (⟨3, ![R, 64, 256]⟩ : Shape).Slices ![0, kw, 0] ⟨3, ![R, 62, 256]⟩)
    (h3 : (⟨3, ![R, 62, 256]⟩ : Shape).ShapeCasts ⟨4, ![1, R, 62, 256]⟩)
    (x : (⟨4, ![1, R, 62, 256]⟩ : Shape).Idx) :
    shapeCast ⟨4, ![1, R, 62, 256]⟩ (extractStridedSlice ⟨3, ![R, 62, 256]⟩ ![0, kw, 0] (shapeCast ⟨3, ![R, 64, 256]⟩ v h1) h2) h3 x
      = v (ix4 (0 : Fin 1) (⟨(x 1).val, (x 1).isLt⟩ : Fin R)
          (⟨(x 2).val + kw, by have h : (x 2).val < 62 := (x 2).isLt; omega⟩ : Fin 64) (⟨(x 3).val, (x 3).isLt⟩ : Fin 256)) := by
  refine (shapeCast_addUnit_apply ![R, 62, 256] _ h3 x).trans ?_
  unfold extractStridedSlice
  refine (shapeCast_dropUnit_apply ![R, 64, 256] v h1 _).trans ?_
  refine congrArg v ?_
  funext a
  match a with
  | ⟨0, _⟩ => rfl
  | ⟨1, _⟩ => exact Fin.ext (by show 0 + (x 1).val = (x 1).val; omega)
  | ⟨2, _⟩ => exact Fin.ext (by show kw + (x 2).val = (x 2).val + kw; omega)
  | ⟨3, _⟩ => exact Fin.ext (by show 0 + (x 3).val = (x 3).val; omega)

/-- One of the body's nine stored pieces at an index: the band of R rows loaded at row 16·q + kh of the slab,
    sliced at column offset kw, is the block function on the lane group 3·kh + kw. -/
theorem piece_apply {Val : EltTy → Type} {e : EltTy} (R kh kw q : Nat) (hkh : kh ≤ 2) (hkw : kw ≤ 2) (hrow : 16 * q + kh + R ≤ 64)
    (X0 : (⟨4, ![1, 64, 64, 256]⟩ : Shape).Idx → Val e)
    (off : Fin 4 → Nat) (hoff : off = ![0, 16 * q + kh, 0, 0])
    (inb : ∀ a, off a + (⟨4, ![1, R, 64, 256]⟩ : Shape).size a ≤ (⟨4, ![1, 64, 64, 256]⟩ : Shape).size a)
    (v : (⟨4, ![1, R, 64, 256]⟩ : Shape).Idx → Val e)
    (hv : v = View.ld X0 (Rect.unit (s := ⟨4, ![1, 64, 64, 256]⟩) off (⟨4, ![1, R, 64, 256]⟩ : Shape).size inb))
    (offo : Fin 4 → Nat) (hoffo : offo = ![0, 0, 0, 256 * (3 * kh + kw)])
    (inbo : ∀ a, offo a + (⟨4, ![1, R, 62, 256]⟩ : Shape).size a ≤ (⟨4, ![1, 16, 62, 2304]⟩ : Shape).size a)
    (h1 : (⟨4, ![1, R, 64, 256]⟩ : Shape).ShapeCasts ⟨3, ![R, 64, 256]⟩)
    (h2 : (⟨3, ![R, 64, 256]⟩ : Shape).Slices ![0, kw, 0] ⟨3, ![R, 62, 256]⟩)
    (h3 : (⟨3, ![R, 62, 256]⟩ : Shape).ShapeCasts ⟨4, ![1, R, 62, 256]⟩)
    (x : (⟨4, ![1, R, 62, 256]⟩ : Shape).Idx) :
    shapeCast ⟨4, ![1, R, 62, 256]⟩ (extractStridedSlice ⟨3, ![R, 62, 256]⟩ ![0, kw, 0]
        (shapeCast ⟨3, ![R, 64, 256]⟩ v h1) h2) h3 x
      = blockFn X0 q ((Rect.unit (s := ⟨4, ![1, 16, 62, 2304]⟩) offo (⟨4, ![1, R, 62, 256]⟩ : Shape).size inbo).emb x) := by
  subst hoff; subst hoffo; subst hv
  refine (band_apply R kw (by omega) _ h1 h2 h3 x).trans ?_
  unfold blockFn
  show X0 _ = X0 _
  refine congrArg X0 ?_
  have x1 : (x 1).val < R := (x 1).isLt
  have x2 : (x 2).val < 62 := (x 2).isLt
  have x3 : (x 3).val < 256 := (x 3).isLt
  funext a
  match a with
  | ⟨0, _⟩ => exact Fin.ext (by show 0 + 1 * 0 = 0; omega)
  | ⟨1, _⟩ =>
    exact Fin.ext (by
      show (16 * q + kh) + 1 * (x 1).val = (16 * q + (0 + 1 * (x 1).val) + (256 * (3 * kh + kw) + 1 * (x 3).val) / 768) % 64
      omega)
  | ⟨2, _⟩ =>
    exact Fin.ext (by
      show 0 + 1 * ((x 2).val + kw) = ((0 + 1 * (x 2).val) + (256 * (3 * kh + kw) + 1 * (x 3).val) / 256 % 3) % 64
      omega)
  | ⟨3, _⟩ =>
    exact Fin.ext (by
      show 0 + 1 * (x 3).val = (256 * (3 * kh + kw) + 1 * (x 3).val) % 256
      omega)

/-- An index of the output block whose row the band stores lies in the lane group its lane falls in. -/
theorem mem_piece (R k : Nat) (offo : Fin 4 → Nat) (hoffo : offo = ![0, 0, 0, 256 * k])
    (inbo : ∀ a, offo a + (⟨4, ![1, R, 62, 256]⟩ : Shape).size a ≤ (⟨4, ![1, 16, 62, 2304]⟩ : Shape).size a)
    (j : (⟨4, ![1, 16, 62, 2304]⟩ : Shape).Idx) (hj1 : (j 1).val < R) (hlo : 256 * k ≤ (j 3).val) (hhi : (j 3).val < 256 * k + 256) :
    j ∈ (Rect.unit (s := ⟨4, ![1, 16, 62, 2304]⟩) offo (⟨4, ![1, R, 62, 256]⟩ : Shape).size inbo).set := by
  subst hoffo
  rw [Rect.mem_set_unit]
  have j0 : (j 0).val < 1 := (j 0).isLt
  have j2 : (j 2).val < 62 := (j 2).isLt
  intro a
  match a with
  | ⟨0, _⟩ => show 0 ≤ (j 0).val ∧ (j 0).val < 0 + 1; omega
  | ⟨1, _⟩ => show 0 ≤ (j 1).val ∧ (j 1).val < 0 + R; omega
  | ⟨2, _⟩ => show 0 ≤ (j 2).val ∧ (j 2).val < 0 + 62; omega
  | ⟨3, _⟩ => show 256 * k ≤ (j 3).val ∧ (j 3).val < 256 * k + 256; omega

/-- A buffer read after a list of stores, at an index some store covers, when every store's payload is its rectangle's
    part of one function G of the buffer's index: G there. -/
theorem read_writes_of_pieces {sig : RefSig} {κ : Kind} {sp : Space} {s : Shape} {e : EltTy} {Val : EltTy → Type}
    [∀ e, Nonempty (Val e)] (v : View sig κ sp s e) (f : v.ty.Contents Val) (G : s.Idx → Val e) (j : s.Idx)
    (L : List (View.Piece Val s e)) (hcov : ∃ p ∈ L, j ∈ p.1.set)
    (hL : ∀ p ∈ L, ∀ x : p.1.shape.Idx, p.2 x = G (p.1.emb x)) :
    v.read Val (v.writes Val f L) j = G j :=
  (View.read_writes_apply_eq_canon v f j L hcov).trans (View.canon_apply_of_pieces G L hL j hcov)

end Cert.Slab
-- ==== Proof.Spec.lean ====
/-
  The specification both programs are compared with: the array of overlapping 3 × 3 windows of the input.

  The input x has shape [8, 64, 64, 16, 16] (batch, row, column, capsule, pose). For a batch b, an output row
  oh < 62 and an output column ow < 62, the window at (b, oh, ow) holds, at (kh, kw, c, d) with kh, kw < 3,
  the input entry x (b, oh + kh, ow + kw, c, d). `patches x` is that array, of shape [8, 62, 62, 3, 3, 16, 16];
  `out x` is the same list of numbers in row-major order, re-laid as [496, 8928, 16].
-/
import Idealize.ShloMosaic.PureOps
import Idealize.ShloMosaic.Lib.ValueIdx

namespace Cert.Patches

open Idealize.ShloMosaic Idealize.ShloMosaic.ValueIdx

/-- The input's shape: batch, row, column, capsule, pose. -/
abbrev Sx : Shape := ⟨5, ![8, 64, 64, 16, 16]⟩
/-- The windows' shape: batch, output row, output column, row in the window, column in the window, capsule, pose. -/
abbrev S7 : Shape := ⟨7, ![8, 62, 62, 3, 3, 16, 16]⟩
/-- The result's shape. -/
abbrev So : Shape := ⟨3, ![496, 8928, 16]⟩

/-- The input index the window entry (b, oh, ow, kh, kw, c, d) reads: (b, oh + kh, ow + kw, c, d). -/
def src (j : S7.Idx) : Sx.Idx :=
  ix5 (⟨(j 0).val, (j 0).isLt⟩ : Fin 8)
    (⟨(j 1).val + (j 3).val, by have h1 : (j 1).val < 62 := (j 1).isLt; have h3 : (j 3).val < 3 := (j 3).isLt; omega⟩ : Fin 64)
    (⟨(j 2).val + (j 4).val, by have h2 : (j 2).val < 62 := (j 2).isLt; have h4 : (j 4).val < 3 := (j 4).isLt; omega⟩ : Fin 64)
    (⟨(j 5).val, (j 5).isLt⟩ : Fin 16)
    (⟨(j 6).val, (j 6).isLt⟩ : Fin 16)

/-- The array of windows: entry (b, oh, ow, kh, kw, c, d) is x (b, oh + kh, ow + kw, c, d). -/
def patches {α : Type} (x : Sx.Idx → α) : S7.Idx → α := fun j => x (src j)

/-- The windows in row-major order, re-laid as [496, 8928, 16]. -/
def out {α : Type} (x : Sx.Idx → α) (h : S7.ShapeCasts So) : So.Idx → α := shapeCast So (patches x) h

end Cert.Patches
-- ==== Proof.Region.lean ====
/-
  The kernel's three stages as functions of arrays, and why their composite is the array of windows.

  The kernel's program first merges the capsule and pose axes of x (a re-laying of [8, 64, 64, 16, 16] as
  [8, 64, 64, 256]), then fills an array of shape [8, 62, 62, 2304] whose entry (b, oh, ow, l) is the merged input
  at (b, oh + l / 768, ow + (l / 256) % 3, l % 256) (`regionFn`), then re-lays that as [496, 8928, 16]. A
  re-laying keeps the row-major position of every entry. The lane l = 256·(3·kh + kw) + 16·c + d names the window
  entry (kh, kw, c, d), so the row-major position of (b, oh, ow, l) among [8, 62, 62, 2304] is the row-major position
  of (b, oh, ow, kh, kw, c, d) among [8, 62, 62, 3, 3, 16, 16], and the merged input at
  (b, oh + kh, ow + kw, 16·c + d) is x (b, oh + kh, ow + kw, c, d): the composite is `Cert.Patches.out x`.
-/
import proofs.«104910_j33225867002119_2_alg».proof.Proof.Spec
import Idealize.ShloMosaic.Lib.Pipeline.Value

namespace Cert.Slab

open Idealize.ShloMosaic Idealize.ShloMosaic.ValueIdx

/-- The merged input's shape. -/
abbrev S4i : Shape := ⟨4, ![8, 64, 64, 256]⟩
/-- The shape of the array the grid fills. -/
abbrev S4o : Shape := ⟨4, ![8, 62, 62, 2304]⟩

/-- The array the grid fills, as a function of the merged input. -/
def regionFn {α : Type} (X : S4i.Idx → α) : S4o.Idx → α := fun j =>
  X (ix4 (⟨(j 0).val, (j 0).isLt⟩ : Fin 8)
    (⟨(j 1).val + (j 3).val / 768, by
        have h1 : (j 1).val < 62 := (j 1).isLt; have h3 : (j 3).val < 2304 := (j 3).isLt; omega⟩ : Fin 64)
    (⟨(j 2).val + (j 3).val / 256 % 3, by have h2 : (j 2).val < 62 := (j 2).isLt; omega⟩ : Fin 64)
    (⟨(j 3).val % 256, Nat.mod_lt _ (by decide)⟩ : Fin 256))

/-- The filled array at j is the merged input at any index with the coordinates the definition names. -/
theorem regionFn_eq {α : Type} (X : S4i.Idx → α) (j : S4o.Idx) (k : S4i.Idx) (h0 : (k 0).val = (j 0).val)
    (h1 : (k 1).val = (j 1).val + (j 3).val / 768) (h2 : (k 2).val = (j 2).val + (j 3).val / 256 % 3)
    (h3 : (k 3).val = (j 3).val % 256) : regionFn X j = X k := by
  unfold regionFn
  refine congrArg X ?_
  funext a
  match a with
  | ⟨0, _⟩ => exact Fin.ext h0.symm
  | ⟨1, _⟩ => exact Fin.ext h1.symm
  | ⟨2, _⟩ => exact Fin.ext h2.symm
  | ⟨3, _⟩ => exact Fin.ext h3.symm

/-- Row-major position in the windows' shape, written out. -/
theorem rowMajor_S7 (k : Cert.Patches.S7.Idx) :
    (Cert.Patches.S7.rowMajor k).val
      = (((((((k 0).val * 62 + (k 1).val) * 62 + (k 2).val) * 3 + (k 3).val) * 3 + (k 4).val) * 16 + (k 5).val) * 16 + (k 6).val) := by
  rw [Shape.rowMajor_val_succ, Shape.rowMajor_val_succ, Shape.rowMajor_val_five]
  have e1 : (⟨6, fun a : Fin 6 => (![8, 62, 62, 3, 3, 16, 16] : Fin 7 → Nat) a.succ⟩ : Shape).numel = 62 * 62 * 3 * 3 * 16 * 16 := by decide
  have e2 : (⟨5, fun a : Fin 5 => (fun a : Fin 6 => (![8, 62, 62, 3, 3, 16, 16] : Fin 7 → Nat) a.succ) a.succ⟩ : Shape).numel = 62 * 3 * 3 * 16 * 16 := by decide
  rw [e1, e2]
  show (k 0).val * (62 * 62 * 3 * 3 * 16 * 16) + ((k 1).val * (62 * 3 * 3 * 16 * 16)
    + (((((k 2).val * 3 + (k 3).val) * 3 + (k 4).val) * 16 + (k 5).val) * 16 + (k 6).val)) = _
  ring

/-- The kernel's three stages compose to the array of windows, re-laid. -/
theorem region_out {α : Type} (x : Cert.Patches.Sx.Idx → α) (h54 : Cert.Patches.Sx.ShapeCasts S4i)
    (h43 : S4o.ShapeCasts Cert.Patches.So) (h73 : Cert.Patches.S7.ShapeCasts Cert.Patches.So) :
    shapeCast Cert.Patches.So (regionFn (shapeCast S4i x h54)) h43 = Cert.Patches.out x h73 := by
  funext i
  show x (Shape.reshapeEquiv h54 _) = x (Cert.Patches.src (Shape.reshapeEquiv h73 i))
  refine congrArg x ?_
  refine Shape.reshapeEquiv_eq_of_rowMajor h54 ?_
  have e4 := Shape.rowMajor_reshapeEquiv h43 i
  have e7 := Shape.rowMajor_reshapeEquiv h73 i
  generalize Shape.reshapeEquiv h43 i = k4 at e4 ⊢
  generalize Shape.reshapeEquiv h73 i = k7 at e7
  rw [Shape.rowMajor_val_four] at e4
  rw [rowMajor_S7] at e7
  rw [Shape.rowMajor_val_five, Shape.rowMajor_val_four]
  have a0 : (k4 0).val < 8 := (k4 0).isLt
  have a1 : (k4 1).val < 62 := (k4 1).isLt
  have a2 : (k4 2).val < 62 := (k4 2).isLt
  have a3 : (k4 3).val < 2304 := (k4 3).isLt
  have b0 : (k7 0).val < 8 := (k7 0).isLt
  have b1 : (k7 1).val < 62 := (k7 1).isLt
  have b2 : (k7 2).val < 62 := (k7 2).isLt
  have b3 : (k7 3).val < 3 := (k7 3).isLt
  have b4 : (k7 4).val < 3 := (k7 4).isLt
  have b5 : (k7 5).val < 16 := (k7 5).isLt
  have b6 : (k7 6).val < 16 := (k7 6).isLt
  show (((((k7 0).val * 64 + ((k7 1).val + (k7 3).val)) * 64 + ((k7 2).val + (k7 4).val)) * 16 + (k7 5).val) * 16 + (k7 6).val)
    = ((((k4 0).val * 64 + ((k4 1).val + (k4 3).val / 768)) * 64 + ((k4 2).val + (k4 3).val / 256 % 3)) * 256 + (k4 3).val % 256)
  have e : (((k4 0).val * 62 + (k4 1).val) * 62 + (k4 2).val) * 2304 + (k4 3).val
      = (((((((k7 0).val * 62 + (k7 1).val) * 62 + (k7 2).val) * 3 + (k7 3).val) * 3 + (k7 4).val) * 16 + (k7 5).val) * 16 + (k7 6).val) :=
    e4.trans e7.symm
  omega

end Cert.Slab
-- ==== Proof.KFrame.lean ====
/-
  The frame of the program `Kernel`, and what its grid leaves in the array it fills.

  The grid has 8 × 4 points: point (b, q) reads batch b's whole slab and writes rows 16·q … 16·q + 15 of batch b's
  part of the output; the last band (q = 3) overhangs the array's 62 rows by two, so only its first fourteen rows are
  written back, and those are exactly the rows the body stores there. The body has two control cases (q ≠ 3: sixteen
  rows; q = 3: fourteen); in each it makes nine stores, one per window entry (kh, kw), of a band of the slab.
  `sound_kernel_A` / `sound_kernel_B` run the body once per case at a symbolic point; the proof data says that after
  point t the output's staging buffer holds, on the rows that are written back, block t of ONE array, `garr` (the
  function `Cert.Slab.regionFn` of the region's input array); `blk_read_eq` is the index arithmetic that identifies
  what the stores leave with that block.
-/
import proofs.«104910_j33225867002119_2_alg».proof.Proof.Gen.Kernel.Launch
import proofs.«104910_j33225867002119_2_alg».proof.Proof.Gen.Kernel.Skeleton
import proofs.«104910_j33225867002119_2_alg».proof.Proof.Gen.Kernel.Points
import proofs.«104910_j33225867002119_2_alg».proof.Proof.Gen.Kernel.Frame
import proofs.«104910_j33225867002119_2_alg».proof.Proof.Slab
import proofs.«104910_j33225867002119_2_alg».proof.Proof.Region
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body, once per control case -/

set_option maxHeartbeats 1000000 in
/-- The body where the band is not the last one: sixteen rows. From the input block x0 in the first buffer and anything in the second, it
    ends with the first unchanged and the second reading, everywhere, the block function of x0 at the band. -/
theorem sound_kernel_A (c : Dev nD) (E : Set ℕ) (i : grid0.Coords) (hc : k0_cond1 i = 1#1) (hc2 : ¬ k0_cond2 i = 1#1) (hi : (i 1).val ≤ 2)
    (arg2 : Memref sig .tc .vmem S1x64x64x256 .f32) (harg2 : arg2.IsWhole) (arg3 : Memref sig .tc .vmem S1x16x62x2304 .f32) (harg3 : arg3.IsWhole)
    (x0 : Vec F S1x64x64x256 .f32) (K : PUnit → sProp 𝕄) :
    iprop(owns (c : Thread nD τ) arg2 fullShare x0 ∗ (∃ d, owns (c : Thread nD τ) arg3 fullShare d)
        ∗ (iprop(owns (c : Thread nD τ) arg2 fullShare x0
            ∗ (∃ f, ⌜∀ j : S1x16x62x2304.Idx, View.read (Elt F) arg3.view f j = Cert.Slab.blockFn x0 (i 1).val j⌝
                ∗ View.loc (c : Thread nD τ) arg3.view ↦[arg3.view.set]{fullShare} f)) -∗ K ⟨⟩))
      ⊢ wp frame (wpE (defs₀ (F := F)) Variants.none c none) E (cc0__gather_kernel i arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec (disch := first | exact hc | exact hc2)
  sl_step
  iapply Hk
  isplitl [H0]
  · iexists f0; isplitr; · ipureintro; rfl
    iexact H0
  iexists _; isplitr
  swap; · iexact H1
  ipureintro
  intro j
  have hj1 : (j 1).val < 16 := (j 1).isLt
  sl_unfold_run_names
  refine Cert.Slab.read_writes_of_pieces _ _ _ j _ ?_ ?_
  · have j3 : (j 3).val < 2304 := (j 3).isLt
    obtain ⟨k, hk9, hlo, hhi⟩ : ∃ k, k < 9 ∧ 256 * k ≤ (j 3).val ∧ (j 3).val < 256 * k + 256 :=
      ⟨(j 3).val / 256, by omega, by omega, by omega⟩
    interval_cases k
    · refine ⟨_, List.Mem.tail _ (List.Mem.tail _ (List.Mem.tail _ (List.Mem.tail _ (List.Mem.tail _ (List.Mem.tail _ (List.Mem.tail _ (List.Mem.tail _ (List.Mem.head _)))))))), ?_⟩; exact Cert.Slab.mem_piece 16 0 _ rfl (by decide) j hj1 hlo hhi
    · refine ⟨_, List.Mem.tail _ (List.Mem.tail _ (List.Mem.tail _ (List.Mem.tail _ (List.Mem.tail _ (List.Mem.tail _ (List.Mem.tail _ (List.Mem.head _))))))), ?_⟩; exact Cert.Slab.mem_piece 16 1 _ rfl (by decide) j hj1 hlo hhi
    · refine ⟨_, List.Mem.tail _ (List.Mem.tail _ (List.Mem.tail _ (List.Mem.tail _ (List.Mem.tail _ (List.Mem.tail _ (List.Mem.head _)))))), ?_⟩; exact Cert.Slab.mem_piece 16 2 _ rfl (by decide) j hj1 hlo hhi
    · refine ⟨_, List.Mem.tail _ (List.Mem.tail _ (List.Mem.tail _ (List.Mem.tail _ (List.Mem.tail _ (List.Mem.head _))))), ?_⟩; exact Cert.Slab.mem_piece 16 3 _ rfl (by decide) j hj1 hlo hhi
    · refine ⟨_, List.Mem.tail _ (List.Mem.tail _ (List.Mem.tail _ (List.Mem.tail _ (List.Mem.head _)))), ?_⟩; exact Cert.Slab.mem_piece 16 4 _ rfl (by decide) j hj1 hlo hhi
    · refine ⟨_, List.Mem.tail _ (List.Mem.tail _ (List.Mem.tail _ (List.Mem.head _))), ?_⟩; exact Cert.Slab.mem_piece 16 5 _ rfl (by decide) j hj1 hlo hhi
    · refine ⟨_, List.Mem.tail _ (List.Mem.tail _ (List.Mem.head _)), ?_⟩; exact Cert.Slab.mem_piece 16 6 _ rfl (by decide) j hj1 hlo hhi
    · refine ⟨_, List.Mem.tail _ (List.Mem.head _), ?_⟩; exact Cert.Slab.mem_piece 16 7 _ rfl (by decide) j hj1 hlo hhi
    · refine ⟨_, List.Mem.head _, ?_⟩; exact Cert.Slab.mem_piece 16 8 _ rfl (by decide) j hj1 hlo hhi
  · intro p hp
    simp only [List.mem_cons, List.mem_nil_iff, _root_.or_false] at hp
    rcases hp with rfl | rfl | rfl | rfl | rfl | rfl | rfl | rfl | rfl
    · intro x
      exact Cert.Slab.piece_apply 16 2 2 (i 1).val (by decide) (by decide) (by omega) (View.read (Elt F) arg2.view f0)
        (k0_off1 i 2#32) (k0_off1_eq i ⟨2, by decide⟩) (k0_off1_inb i hc 2) _ rfl _ rfl (by decide) (by decide) (by decide) (by decide) x
    · intro x
      exact Cert.Slab.piece_apply 16 2 1 (i 1).val (by decide) (by decide) (by omega) (View.read (Elt F) arg2.view f0)
        (k0_off1 i 2#32) (k0_off1_eq i ⟨2, by decide⟩) (k0_off1_inb i hc 2) _ rfl _ rfl (by decide) (by decide) (by decide) (by decide) x
    · intro x
      exact Cert.Slab.piece_apply 16 2 0 (i 1).val (by decide) (by decide) (by omega) (View.read (Elt F) arg2.view f0)
        (k0_off1 i 2#32) (k0_off1_eq i ⟨2, by decide⟩) (k0_off1_inb i hc 2) _ rfl _ rfl (by decide) (by decide) (by decide) (by decide) x
    · intro x
      exact Cert.Slab.piece_apply 16 1 2 (i 1).val (by decide) (by decide) (by omega) (View.read (Elt F) arg2.view f0)
        (k0_off1 i 1#32) (k0_off1_eq i ⟨1, by decide⟩) (k0_off1_inb i hc 1) _ rfl _ rfl (by decide) (by decide) (by decide) (by decide) x
    · intro x
      exact Cert.Slab.piece_apply 16 1 1 (i 1).val (by decide) (by decide) (by omega) (View.read (Elt F) arg2.view f0)
        (k0_off1 i 1#32) (k0_off1_eq i ⟨1, by decide⟩) (k0_off1_inb i hc 1) _ rfl _ rfl (by decide) (by decide) (by decide) (by decide) x
    · intro x
      exact Cert.Slab.piece_apply 16 1 0 (i 1).val (by decide) (by decide) (by omega) (View.read (Elt F) arg2.view f0)
        (k0_off1 i 1#32) (k0_off1_eq i ⟨1, by decide⟩) (k0_off1_inb i hc 1) _ rfl _ rfl (by decide) (by decide) (by decide) (by decide) x
    · intro x
      exact Cert.Slab.piece_apply 16 0 2 (i 1).val (by decide) (by decide) (by omega) (View.read (Elt F) arg2.view f0)
        (k0_off1 i 0#32) (k0_off1_eq i ⟨0, by decide⟩) (k0_off1_inb i hc 0) _ rfl _ rfl (by decide) (by decide) (by decide) (by decide) x
    · intro x
      exact Cert.Slab.piece_apply 16 0 1 (i 1).val (by decide) (by decide) (by omega) (View.read (Elt F) arg2.view f0)
        (k0_off1 i 0#32) (k0_off1_eq i ⟨0, by decide⟩) (k0_off1_inb i hc 0) _ rfl _ rfl (by decide) (by decide) (by decide) (by decide) x
    · intro x
      exact Cert.Slab.piece_apply 16 0 0 (i 1).val (by decide) (by decide) (by omega) (View.read (Elt F) arg2.view f0)
        (k0_off1 i 0#32) (k0_off1_eq i ⟨0, by decide⟩) (k0_off1_inb i hc 0) _ rfl _ rfl (by decide) (by decide) (by decide) (by decide) x

set_option maxHeartbeats 1000000 in
/-- The body where the band is the last one: fourteen rows. From the input block x0 in the first buffer and anything in the second, it
    ends with the first unchanged and the second reading, on its first fourteen rows, the block function of x0 at the band. -/
theorem sound_kernel_B (c : Dev nD) (E : Set ℕ) (i : grid0.Coords) (hc : k0_cond2 i = 1#1) (hc2 : ¬ k0_cond1 i = 1#1) (hi : (i 1).val = 3)
    (arg2 : Memref sig .tc .vmem S1x64x64x256 .f32) (harg2 : arg2.IsWhole) (arg3 : Memref sig .tc .vmem S1x16x62x2304 .f32) (harg3 : arg3.IsWhole)
    (x0 : Vec F S1x64x64x256 .f32) (K : PUnit → sProp 𝕄) :
    iprop(owns (c : Thread nD τ) arg2 fullShare x0 ∗ (∃ d, owns (c : Thread nD τ) arg3 fullShare d)
        ∗ (iprop(owns (c : Thread nD τ) arg2 fullShare x0
            ∗ (∃ f, ⌜∀ j : S1x16x62x2304.Idx, (j 1).val < 14 → View.read (Elt F) arg3.view f j = Cert.Slab.blockFn x0 (i 1).val j⌝
                ∗ View.loc (c : Thread nD τ) arg3.view ↦[arg3.view.set]{fullShare} f)) -∗ K ⟨⟩))
      ⊢ wp frame (wpE (defs₀ (F := F)) Variants.none c none) E (cc0__gather_kernel i arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec (disch := first | exact hc | exact hc2)
  sl_step
  iapply Hk
  isplitl [H0]
  · iexists f0; isplitr; · ipureintro; rfl
    iexact H0
  iexists _; isplitr
  swap; · iexact H1
  ipureintro
  intro j hj1

  sl_unfold_run_names
  refine Cert.Slab.read_writes_of_pieces _ _ _ j _ ?_ ?_
  · have j3 : (j 3).val < 2304 := (j 3).isLt
    obtain ⟨k, hk9, hlo, hhi⟩ : ∃ k, k < 9 ∧ 256 * k ≤ (j 3).val ∧ (j 3).val < 256 * k + 256 :=
      ⟨(j 3).val / 256, by omega, by omega, by omega⟩
    interval_cases k
    · refine ⟨_, List.Mem.tail _ (List.Mem.tail _ (List.Mem.tail _ (List.Mem.tail _ (List.Mem.tail _ (List.Mem.tail _ (List.Mem.tail _ (List.Mem.tail _ (List.Mem.head _)))))))), ?_⟩; exact Cert.Slab.mem_piece 14 0 _ rfl (by decide) j hj1 hlo hhi
    · refine ⟨_, List.Mem.tail _ (List.Mem.tail _ (List.Mem.tail _ (List.Mem.tail _ (List.Mem.tail _ (List.Mem.tail _ (List.Mem.tail _ (List.Mem.head _))))))), ?_⟩; exact Cert.Slab.mem_piece 14 1 _ rfl (by decide) j hj1 hlo hhi
    · refine ⟨_, List.Mem.tail _ (List.Mem.tail _ (List.Mem.tail _ (List.Mem.tail _ (List.Mem.tail _ (List.Mem.tail _ (List.Mem.head _)))))), ?_⟩; exact Cert.Slab.mem_piece 14 2 _ rfl (by decide) j hj1 hlo hhi
    · refine ⟨_, List.Mem.tail _ (List.Mem.tail _ (List.Mem.tail _ (List.Mem.tail _ (List.Mem.tail _ (List.Mem.head _))))), ?_⟩; exact Cert.Slab.mem_piece 14 3 _ rfl (by decide) j hj1 hlo hhi
    · refine ⟨_, List.Mem.tail _ (List.Mem.tail _ (List.Mem.tail _ (List.Mem.tail _ (List.Mem.head _)))), ?_⟩; exact Cert.Slab.mem_piece 14 4 _ rfl (by decide) j hj1 hlo hhi
    · refine ⟨_, List.Mem.tail _ (List.Mem.tail _ (List.Mem.tail _ (List.Mem.head _))), ?_⟩; exact Cert.Slab.mem_piece 14 5 _ rfl (by decide) j hj1 hlo hhi
    · refine ⟨_, List.Mem.tail _ (List.Mem.tail _ (List.Mem.head _)), ?_⟩; exact Cert.Slab.mem_piece 14 6 _ rfl (by decide) j hj1 hlo hhi
    · refine ⟨_, List.Mem.tail _ (List.Mem.head _), ?_⟩; exact Cert.Slab.mem_piece 14 7 _ rfl (by decide) j hj1 hlo hhi
    · refine ⟨_, List.Mem.head _, ?_⟩; exact Cert.Slab.mem_piece 14 8 _ rfl (by decide) j hj1 hlo hhi
  · intro p hp
    simp only [List.mem_cons, List.mem_nil_iff, _root_.or_false] at hp
    rcases hp with rfl | rfl | rfl | rfl | rfl | rfl | rfl | rfl | rfl
    · intro x
      exact Cert.Slab.piece_apply 14 2 2 (i 1).val (by decide) (by decide) (by omega) (View.read (Elt F) arg2.view f0)
        (k0_off2 i 2#32) (k0_off2_eq i ⟨2, by decide⟩) (k0_off2_inb i hc 2) _ rfl _ rfl (by decide) (by decide) (by decide) (by decide) x
    · intro x
      exact Cert.Slab.piece_apply 14 2 1 (i 1).val (by decide) (by decide) (by omega) (View.read (Elt F) arg2.view f0)
        (k0_off2 i 2#32) (k0_off2_eq i ⟨2, by decide⟩) (k0_off2_inb i hc 2) _ rfl _ rfl (by decide) (by decide) (by decide) (by decide) x
    · intro x
      exact Cert.Slab.piece_apply 14 2 0 (i 1).val (by decide) (by decide) (by omega) (View.read (Elt F) arg2.view f0)
        (k0_off2 i 2#32) (k0_off2_eq i ⟨2, by decide⟩) (k0_off2_inb i hc 2) _ rfl _ rfl (by decide) (by decide) (by decide) (by decide) x
    · intro x
      exact Cert.Slab.piece_apply 14 1 2 (i 1).val (by decide) (by decide) (by omega) (View.read (Elt F) arg2.view f0)
        (k0_off2 i 1#32) (k0_off2_eq i ⟨1, by decide⟩) (k0_off2_inb i hc 1) _ rfl _ rfl (by decide) (by decide) (by decide) (by decide) x
    · intro x
      exact Cert.Slab.piece_apply 14 1 1 (i 1).val (by decide) (by decide) (by omega) (View.read (Elt F) arg2.view f0)
        (k0_off2 i 1#32) (k0_off2_eq i ⟨1, by decide⟩) (k0_off2_inb i hc 1) _ rfl _ rfl (by decide) (by decide) (by decide) (by decide) x
    · intro x
      exact Cert.Slab.piece_apply 14 1 0 (i 1).val (by decide) (by decide) (by omega) (View.read (Elt F) arg2.view f0)
        (k0_off2 i 1#32) (k0_off2_eq i ⟨1, by decide⟩) (k0_off2_inb i hc 1) _ rfl _ rfl (by decide) (by decide) (by decide) (by decide) x
    · intro x
      exact Cert.Slab.piece_apply 14 0 2 (i 1).val (by decide) (by decide) (by omega) (View.read (Elt F) arg2.view f0)
        (k0_off2 i 0#32) (k0_off2_eq i ⟨0, by decide⟩) (k0_off2_inb i hc 0) _ rfl _ rfl (by decide) (by decide) (by decide) (by decide) x
    · intro x
      exact Cert.Slab.piece_apply 14 0 1 (i 1).val (by decide) (by decide) (by omega) (View.read (Elt F) arg2.view f0)
        (k0_off2 i 0#32) (k0_off2_eq i ⟨0, by decide⟩) (k0_off2_inb i hc 0) _ rfl _ rfl (by decide) (by decide) (by decide) (by decide) x
    · intro x
      exact Cert.Slab.piece_apply 14 0 0 (i 1).val (by decide) (by decide) (by omega) (View.read (Elt F) arg2.view f0)
        (k0_off2 i 0#32) (k0_off2_eq i ⟨0, by decide⟩) (k0_off2_inb i hc 0) _ rfl _ rfl (by decide) (by decide) (by decide) (by decide) x

/-! ## The grid and the windows, decided once over the 32 points -/

/-- The first branch is taken on the bands q ≤ 2, the second on the band q = 3. -/
theorem cond_facts : ∀ i : grid0.Coords, (k0_cond1 i = 1#1 ↔ (i 1).val ≤ 2) ∧ (k0_cond2 i = 1#1 ↔ (i 1).val = 3) := by
  decide +kernel

/-- So the body stores into the output's buffer at every point. -/
theorem idle1 : ∀ t : Fin cfg0.N, cfg0.idle 1 (cfg0.grid.coords t) = false :=
  (by decide +kernel : ∀ t : Fin grid0.N, idle0 1 (grid0.coords t) = false)

/-- Point t is (b, q) = (t / 4, t % 4): the input window is at block (b, 0, 0, 0), the output window at block
    (b, q, 0, 0), and the part of the output block inside the array has 14 rows at q = 3 and 16 otherwise. -/
theorem win_facts : ∀ t : Fin cfg0.N,
    (win0_0.index t (0 : Fin 4) = t.val / 4 ∧ win0_0.index t (1 : Fin 4) = 0 ∧ win0_0.index t (2 : Fin 4) = 0 ∧ win0_0.index t (3 : Fin 4) = 0)
    ∧ (win0_1.index t (0 : Fin 4) = t.val / 4 ∧ win0_1.index t (1 : Fin 4) = t.val % 4 ∧ win0_1.index t (2 : Fin 4) = 0 ∧ win0_1.index t (3 : Fin 4) = 0)
    ∧ ((grid0.coords t 1).val = t.val % 4)
    ∧ ((win0_1.xblock (grid0.coords t)).size 0 = 1 ∧ (win0_1.xblock (grid0.coords t)).size 1 = (if t.val % 4 = 3 then 14 else 16)
        ∧ (win0_1.xblock (grid0.coords t)).size 2 = 62 ∧ (win0_1.xblock (grid0.coords t)).size 3 = 2304) :=
  (by decide +kernel : ∀ t : Fin grid0.N,
    (win0_0.index t (0 : Fin 4) = t.val / 4 ∧ win0_0.index t (1 : Fin 4) = 0 ∧ win0_0.index t (2 : Fin 4) = 0 ∧ win0_0.index t (3 : Fin 4) = 0)
    ∧ (win0_1.index t (0 : Fin 4) = t.val / 4 ∧ win0_1.index t (1 : Fin 4) = t.val % 4 ∧ win0_1.index t (2 : Fin 4) = 0 ∧ win0_1.index t (3 : Fin 4) = 0)
    ∧ ((grid0.coords t 1).val = t.val % 4)
    ∧ ((win0_1.xblock (grid0.coords t)).size 0 = 1 ∧ (win0_1.xblock (grid0.coords t)).size 1 = (if t.val % 4 = 3 then 14 else 16)
        ∧ (win0_1.xblock (grid0.coords t)).size 2 = 62 ∧ (win0_1.xblock (grid0.coords t)).size 3 = 2304))

/-- The output window's rectangle in the array at point t: where it starts and how much of the block lies inside. -/
theorem rect_facts : ∀ t : Fin cfg0.N, ∀ a : Fin 4,
    win0_1.index t a * win0_1.size a = (![t.val / 4, t.val % 4 * 16, 0, 0] : Fin 4 → Nat) a
    ∧ win0_1.xsize (grid0.coords t) a = (![1, if t.val % 4 = 3 then 14 else 16, 62, 2304] : Fin 4 → Nat) a :=
  (by decide +kernel : ∀ t : Fin grid0.N, ∀ a : Fin 4,
    win0_1.index t a * win0_1.size a = (![t.val / 4, t.val % 4 * 16, 0, 0] : Fin 4 → Nat) a
    ∧ win0_1.xsize (grid0.coords t) a = (![1, if t.val % 4 = 3 then 14 else 16, 62, 2304] : Fin 4 → Nat) a)

/-! ## Block t of the filled array is the block function of block t of the input -/

/-- Two indices of a rank-4 shape with equal coordinates are equal. -/
theorem idx4_ext {d : Fin 4 → Nat} (p q : (⟨4, d⟩ : Shape).Idx) (h0 : (p 0).val = (q 0).val) (h1 : (p 1).val = (q 1).val)
    (h2 : (p 2).val = (q 2).val) (h3 : (p 3).val = (q 3).val) : p = q := by
  funext a
  match a with
  | ⟨0, _⟩ => exact Fin.ext h0
  | ⟨1, _⟩ => exact Fin.ext h1
  | ⟨2, _⟩ => exact Fin.ext h2
  | ⟨3, _⟩ => exact Fin.ext h3

/-- Where an entry of the output window's block at point t sits in the array: block index times block size plus
    the coordinate in the block, axis by axis. -/
theorem emb1 (t : Fin cfg0.N) (y : (win0_1.xblock (grid0.coords t)).Idx) :
    (((win0_1.blk t).view.emb y) 0).val = win0_1.index t (0 : Fin 4) * 1 + 1 * (y 0).val
    ∧ (((win0_1.blk t).view.emb y) 1).val = win0_1.index t (1 : Fin 4) * 16 + 1 * (y 1).val
    ∧ (((win0_1.blk t).view.emb y) 2).val = win0_1.index t (2 : Fin 4) * 62 + 1 * (y 2).val
    ∧ (((win0_1.blk t).view.emb y) 3).val = win0_1.index t (3 : Fin 4) * 2304 + 1 * (y 3).val :=
  ⟨rfl, rfl, rfl, rfl⟩

/-- Where an entry of the input window's block at point t sits in the array. -/
theorem emb0 (t : Fin cfg0.N) (z : (win0_0.xblock (grid0.coords t)).Idx) :
    (((win0_0.blk t).view.emb z) 0).val = win0_0.index t (0 : Fin 4) * 1 + 1 * (z 0).val
    ∧ (((win0_0.blk t).view.emb z) 1).val = win0_0.index t (1 : Fin 4) * 64 + 1 * (z 1).val
    ∧ (((win0_0.blk t).view.emb z) 2).val = win0_0.index t (2 : Fin 4) * 64 + 1 * (z 2).val
    ∧ (((win0_0.blk t).view.emb z) 3).val = win0_0.index t (3 : Fin 4) * 256 + 1 * (z 3).val :=
  ⟨rfl, rfl, rfl, rfl⟩

/-- A read through the output window's block at point t is the array at the entry's place. -/
theorem read1 (G : S8x62x62x2304.Idx → Elt F .f32) (t : Fin cfg0.N) (y : (win0_1.xblock (grid0.coords t)).Idx) :
    (win0_1.blk t).view.read (Elt F) G y = G ((win0_1.blk t).view.emb y) := rfl
/-- A read through the input window's block at point t is the array at the entry's place. -/
theorem read0 (X : S8x64x64x256.Idx → Elt F .f32) (t : Fin cfg0.N) (z : (win0_0.xblock (grid0.coords t)).Idx) :
    (win0_0.blk t).view.read (Elt F) X z = X ((win0_0.blk t).view.emb z) := rfl

/-- For any input array X: the output window's block at point t of `regionFn X`, at an index y of the block's part
    inside the array, is the block function (at the point's band) of the input window's block at t, at y. Both sides
    read X at (b, 16·q + y1 + y3 / 768, y2 + (y3 / 256) % 3, y3 % 256), with (b, q) the point. -/
theorem blk_read_eq (X : S8x64x64x256.Idx → Elt F .f32) (t : Fin cfg0.N) (y : (win0_1.xblock (grid0.coords t)).Idx) :
    (win0_1.blk t).view.read (Elt F) (Cert.Slab.regionFn X) y
      = Cert.Slab.blockFn ((win0_0.blk t).view.read (Elt F) X) (grid0.coords t 1).val (win0_1.xinj (grid0.coords t) y) := by
  obtain ⟨⟨i00, i01, i02, i03⟩, ⟨i10, i11, i12, i13⟩, hq, ⟨s0, s1, s2, s3⟩⟩ := win_facts t
  generalize (grid0.coords t 1).val = q at hq ⊢
  have hY0 := lt_of_lt_of_eq (y 0).isLt s0
  have hY1 := Cert.Slab.split_bound _ _ (lt_of_lt_of_eq (y 1).isLt s1)
  have hY2 := lt_of_lt_of_eq (y 2).isLt s2
  have hY3 := lt_of_lt_of_eq (y 3).isLt s3
  obtain ⟨a0, a1, a2, a3⟩ := Cert.Slab.point_arith t.val q (y 0).val (y 1).val (y 2).val (y 3).val
    hq hY0 hY1 hY2 hY3
  obtain ⟨k', k0, k1, k2, k3⟩ : ∃ k' : (win0_0.xblock (grid0.coords t)).Idx, (k' 0).val = 0
      ∧ (k' 1).val = (16 * q + (y 1).val + (y 3).val / 768) % 64
      ∧ (k' 2).val = ((y 2).val + (y 3).val / 256 % 3) % 64 ∧ (k' 3).val = (y 3).val % 256 :=
    ⟨ix4 (0 : Fin 1) (⟨(16 * q + (y 1).val + (y 3).val / 768) % 64, Nat.mod_lt _ (by decide)⟩ : Fin 64)
      (⟨((y 2).val + (y 3).val / 256 % 3) % 64, Nat.mod_lt _ (by decide)⟩ : Fin 64)
      (⟨(y 3).val % 256, Nat.mod_lt _ (by decide)⟩ : Fin 256), rfl, rfl, rfl, rfl⟩
  obtain ⟨f0, f1, f2, f3⟩ := emb0 t k'
  obtain ⟨e0, e1, e2, e3⟩ := emb1 t y
  have hR : Cert.Slab.blockFn ((win0_0.blk t).view.read (Elt F) X) q (win0_1.xinj (grid0.coords t) y)
      = (win0_0.blk t).view.read (Elt F) X k' :=
    Cert.Slab.blockFn_eq _ _ _ k' k0 k1 k2 k3
  rw [hR, read1, read0]
  have j0 := e0.trans (congrArg (fun a => a * 1 + 1 * (y 0).val) i10)
  have j1 := e1.trans (congrArg (fun a => a * 16 + 1 * (y 1).val) i11)
  have j2 := e2.trans (congrArg (fun a => a * 62 + 1 * (y 2).val) i12)
  have j3 := e3.trans (congrArg (fun a => a * 2304 + 1 * (y 3).val) i13)
  refine Cert.Slab.regionFn_eq X _ _ ?_ ?_ ?_ ?_
  · exact (f0.trans (congrArg₂ (fun a b => a * 1 + 1 * b) i00 k0)).trans (a0.trans j0.symm)
  · exact (f1.trans (congrArg₂ (fun a b => a * 64 + 1 * b) i01 k1)).trans
      (a1.trans (congrArg₂ (fun a b => a + b / 768) j1 j3).symm)
  · exact (f2.trans (congrArg₂ (fun a b => a * 64 + 1 * b) i02 k2)).trans
      (a2.trans (congrArg₂ (fun a b => a + b / 256 % 3) j2 j3).symm)
  · exact (f3.trans (congrArg₂ (fun a b => a * 256 + 1 * b) i03 k3)).trans
      (a3.trans (congrArg (fun b => b % 256) j3).symm)

/-! ## The proof data -/

variable (m : (ℓ : Loc nD τ sig) → Buf (Elt F) ℓ) (ρ : Dev nD → PrngReg)

/-- The array the grid fills, as a function of the region's input array as the region finds it. -/
def garr (c : Dev nD) : S8x62x62x2304.Idx → Elt F .f32 := Cert.Slab.regionFn (V m c main_v0)

/-- Its block at point t, the part inside the array. -/
def oblk (c : Dev nD) (t : Fin cfg0.N) : (win0_1.xblock (grid0.coords t)).Idx → Elt F .f32 :=
  (win0_1.blk t).view.read (Elt F) (garr m c)

/-- Block t of `garr` is the block function of the input window's block at t. -/
theorem oblk_eq (c : Dev nD) (t : Fin cfg0.N) (y : (win0_1.xblock (grid0.coords t)).Idx) :
    oblk m c t y = Cert.Slab.blockFn (iblk m c 0 t) (grid0.coords t 1).val (win0_1.xinj (grid0.coords t) y) :=
  blk_read_eq (V m c main_v0) t y

/-- The proof data of the one pipeline on core c: the arrays as the region finds them; after the body at point t
    the input's buffer at its block and the output's at block t of `garr` (filled out, past the array's end, with a
    word nothing reads); the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (oblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits .f32 0#32) (oblk m c t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-- What the obligation asks of the output's buffer after the body: some contents that agree with `after` on the
    part written back. -/
theorem leaves1_eq (c : Dev nD) (t : Fin cfg0.N) :
    (dats m 0 c).leaves 1 t
      = iprop(∃ d, owns (c : Thread nD τ) (st0_1 t) fullShare
          (win0_1.fill (grid0.coords t) d (win0_1.cut (grid0.coords t) ((dats m 0 c).after 1 t)))) := by
  unfold Dat.leaves
  rw [idle1 t]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (dats m 0 c).leaves 1 t)

/-- Contents that agree with g on the part a transfer moves are their own filling with g. -/
theorem fill_self {α : Type} (i : grid0.Coords) (X : win0_1.block.Idx → α) (g : (win0_1.xblock i).Idx → α)
    (h : ∀ y, g y = X (win0_1.xinj i y)) : win0_1.fill i X g = X := by
  have e : g = win0_1.cut i X := funext h
  rw [e, win0_1.fill_cut]

/-- The body at any point: whichever case the point's band selects, the output's buffer ends reading, on the part
    written back, block t of `garr`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves1_eq]
  simp only [before0_0]
  rw [show (dats m 0 c).Φ t.succ = (dats m 0 c).Φ t.castSucc from rfl,
    show (dats m 0 c).owesAt () t.succ = (dats m 0 c).owesAt () t.castSucc from rfl,
    after0_0, after0_1, win0_1.cut_fill]
  have hcf := cond_facts (grid0.coords t)
  have hq4 : ((grid0.coords t) 1).val < 4 := ((grid0.coords t) 1).isLt
  have hxs := (win_facts t).2.2.2.2.1
  have hqt := (win_facts t).2.2.1
  iintro ⟨HΦ, Ho, ⟨%d0, H0⟩, ⟨%d1, H1⟩⟩
  by_cases hc : k0_cond1 (grid0.coords t) = 1#1
  · have hi : ((grid0.coords t) 1).val ≤ 2 := hcf.1.mp hc
    have hc2 : ¬ k0_cond2 (grid0.coords t) = 1#1 := fun h => Cert.Slab.band_not_last _ hi (hcf.2.mp h)
    iapply (sound_kernel_A c Set.univ (grid0.coords t) hc hc2 hi _ _ _ _ (iblk m c 0 t) _)
    isplitl [H0]; · iexact H0
    isplitl [H1]; · iexists _; iexact H1
    iintro ⟨H0, ⟨%f, %hf, H1⟩⟩
    isplitl [HΦ]; · iexact HΦ
    isplitl [Ho]; · iexact Ho
    isplitl [H0]; · iexact H0
    iexists (View.read (Elt F) (st0_1 t).view f)
    rw [fill_self (grid0.coords t) _ (oblk m c t) (fun y => (oblk_eq m c t y).trans (hf _).symm)]
    unfold owns
    iexists f; isplitr; · ipureintro; rfl
    iexact H1
  · have hi : ((grid0.coords t) 1).val = 3 := Cert.Slab.band_last _ hq4 (hcf.1.not.mp hc)
    have hc2 : k0_cond2 (grid0.coords t) = 1#1 := hcf.2.mpr hi
    iapply (sound_kernel_B c Set.univ (grid0.coords t) hc2 hc hi _ _ _ _ (iblk m c 0 t) _)
    isplitl [H0]; · iexact H0
    isplitl [H1]; · iexists _; iexact H1
    iintro ⟨H0, ⟨%f, %hf, H1⟩⟩
    isplitl [HΦ]; · iexact HΦ
    isplitl [Ho]; · iexact Ho
    isplitl [H0]; · iexact H0
    iexists (View.read (Elt F) (st0_1 t).view f)
    have h3 : t.val % 4 = 3 := hqt.symm.trans hi
    rw [fill_self (grid0.coords t) _ (oblk m c t) (fun y => (oblk_eq m c t y).trans (hf _ (by
      have y1 := lt_of_lt_of_eq (y 1).isLt hxs
      rw [if_pos h3] at y1
      exact y1)).symm)]
    unfold owns
    iexists f; isplitr; · ipureintro; rfl
    iexact H1

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the proof data computes
    and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KiFrame.lean ====
/-
  The frame of the program `KernelIdeal`, and what its grid leaves in the array it fills.

  The grid has 8 × 4 points: point (b, q) reads batch b's whole slab and writes rows 16·q … 16·q + 15 of batch b's
  part of the output; the last band (q = 3) overhangs the array's 62 rows by two, so only its first fourteen rows are
  written back, and those are exactly the rows the body stores there. The body has two control cases (q ≠ 3: sixteen
  rows; q = 3: fourteen); in each it makes nine stores, one per window entry (kh, kw), of a band of the slab.
  `sound_kernel_A` / `sound_kernel_B` run the body once per case at a symbolic point; the proof data says that after
  point t the output's staging buffer holds, on the rows that are written back, block t of ONE array, `garr` (the
  function `Cert.Slab.regionFn` of the region's input array); `blk_read_eq` is the index arithmetic that identifies
  what the stores leave with that block; `final1` reads the whole array after the run.
-/
import proofs.«104910_j33225867002119_2_alg».proof.Proof.Gen.KernelIdeal.Launch
import proofs.«104910_j33225867002119_2_alg».proof.Proof.Gen.KernelIdeal.Skeleton
import proofs.«104910_j33225867002119_2_alg».proof.Proof.Gen.KernelIdeal.Points
import proofs.«104910_j33225867002119_2_alg».proof.Proof.Gen.KernelIdeal.Frame
import proofs.«104910_j33225867002119_2_alg».proof.Proof.Slab
import proofs.«104910_j33225867002119_2_alg».proof.Proof.Region
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body, once per control case -/

set_option maxHeartbeats 1000000 in
/-- The body where the band is not the last one: sixteen rows. From the input block x0 in the first buffer and anything in the second, it
    ends with the first unchanged and the second reading, everywhere, the block function of x0 at the band. -/
theorem sound_kernel_A (c : Dev nD) (E : Set ℕ) (i : grid0.Coords) (hc : k0_cond1 i = 1#1) (hc2 : ¬ k0_cond2 i = 1#1) (hi : (i 1).val ≤ 2)
    (arg2 : Memref sig .tc .vmem S1x64x64x256 .f32) (harg2 : arg2.IsWhole) (arg3 : Memref sig .tc .vmem S1x16x62x2304 .f32) (harg3 : arg3.IsWhole)
    (x0 : Vec F S1x64x64x256 .f32) (K : PUnit → sProp 𝕄) :
    iprop(owns (c : Thread nD τ) arg2 fullShare x0 ∗ (∃ d, owns (c : Thread nD τ) arg3 fullShare d)
        ∗ (iprop(owns (c : Thread nD τ) arg2 fullShare x0
            ∗ (∃ f, ⌜∀ j : S1x16x62x2304.Idx, View.read (Elt F) arg3.view f j = Cert.Slab.blockFn x0 (i 1).val j⌝
                ∗ View.loc (c : Thread nD τ) arg3.view ↦[arg3.view.set]{fullShare} f)) -∗ K ⟨⟩))
      ⊢ wp frame (wpE (defs₀ (F := F)) Variants.none c none) E (cc0__gather_kernel i arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec (disch := first | exact hc | exact hc2)
  sl_step
  iapply Hk
  isplitl [H0]
  · iexists f0; isplitr; · ipureintro; rfl
    iexact H0
  iexists _; isplitr
  swap; · iexact H1
  ipureintro
  intro j
  have hj1 : (j 1).val < 16 := (j 1).isLt
  sl_unfold_run_names
  refine Cert.Slab.read_writes_of_pieces _ _ _ j _ ?_ ?_
  · have j3 : (j 3).val < 2304 := (j 3).isLt
    obtain ⟨k, hk9, hlo, hhi⟩ : ∃ k, k < 9 ∧ 256 * k ≤ (j 3).val ∧ (j 3).val < 256 * k + 256 :=
      ⟨(j 3).val / 256, by omega, by omega, by omega⟩
    interval_cases k
    · refine ⟨_, List.Mem.tail _ (List.Mem.tail _ (List.Mem.tail _ (List.Mem.tail _ (List.Mem.tail _ (List.Mem.tail _ (List.Mem.tail _ (List.Mem.tail _ (List.Mem.head _)))))))), ?_⟩; exact Cert.Slab.mem_piece 16 0 _ rfl (by decide) j hj1 hlo hhi
    · refine ⟨_, List.Mem.tail _ (List.Mem.tail _ (List.Mem.tail _ (List.Mem.tail _ (List.Mem.tail _ (List.Mem.tail _ (List.Mem.tail _ (List.Mem.head _))))))), ?_⟩; exact Cert.Slab.mem_piece 16 1 _ rfl (by decide) j hj1 hlo hhi
    · refine ⟨_, List.Mem.tail _ (List.Mem.tail _ (List.Mem.tail _ (List.Mem.tail _ (List.Mem.tail _ (List.Mem.tail _ (List.Mem.head _)))))), ?_⟩; exact Cert.Slab.mem_piece 16 2 _ rfl (by decide) j hj1 hlo hhi
    · refine ⟨_, List.Mem.tail _ (List.Mem.tail _ (List.Mem.tail _ (List.Mem.tail _ (List.Mem.tail _ (List.Mem.head _))))), ?_⟩; exact Cert.Slab.mem_piece 16 3 _ rfl (by decide) j hj1 hlo hhi
    · refine ⟨_, List.Mem.tail _ (List.Mem.tail _ (List.Mem.tail _ (List.Mem.tail _ (List.Mem.head _)))), ?_⟩; exact Cert.Slab.mem_piece 16 4 _ rfl (by decide) j hj1 hlo hhi
    · refine ⟨_, List.Mem.tail _ (List.Mem.tail _ (List.Mem.tail _ (List.Mem.head _))), ?_⟩; exact Cert.Slab.mem_piece 16 5 _ rfl (by decide) j hj1 hlo hhi
    · refine ⟨_, List.Mem.tail _ (List.Mem.tail _ (List.Mem.head _)), ?_⟩; exact Cert.Slab.mem_piece 16 6 _ rfl (by decide) j hj1 hlo hhi
    · refine ⟨_, List.Mem.tail _ (List.Mem.head _), ?_⟩; exact Cert.Slab.mem_piece 16 7 _ rfl (by decide) j hj1 hlo hhi
    · refine ⟨_, List.Mem.head _, ?_⟩; exact Cert.Slab.mem_piece 16 8 _ rfl (by decide) j hj1 hlo hhi
  · intro p hp
    simp only [List.mem_cons, List.mem_nil_iff, _root_.or_false] at hp
    rcases hp with rfl | rfl | rfl | rfl | rfl | rfl | rfl | rfl | rfl
    · intro x
      exact Cert.Slab.piece_apply 16 2 2 (i 1).val (by decide) (by decide) (by omega) (View.read (Elt F) arg2.view f0)
        (k0_off1 i 2#32) (k0_off1_eq i ⟨2, by decide⟩) (k0_off1_inb i hc 2) _ rfl _ rfl (by decide) (by decide) (by decide) (by decide) x
    · intro x
      exact Cert.Slab.piece_apply 16 2 1 (i 1).val (by decide) (by decide) (by omega) (View.read (Elt F) arg2.view f0)
        (k0_off1 i 2#32) (k0_off1_eq i ⟨2, by decide⟩) (k0_off1_inb i hc 2) _ rfl _ rfl (by decide) (by decide) (by decide) (by decide) x
    · intro x
      exact Cert.Slab.piece_apply 16 2 0 (i 1).val (by decide) (by decide) (by omega) (View.read (Elt F) arg2.view f0)
        (k0_off1 i 2#32) (k0_off1_eq i ⟨2, by decide⟩) (k0_off1_inb i hc 2) _ rfl _ rfl (by decide) (by decide) (by decide) (by decide) x
    · intro x
      exact Cert.Slab.piece_apply 16 1 2 (i 1).val (by decide) (by decide) (by omega) (View.read (Elt F) arg2.view f0)
        (k0_off1 i 1#32) (k0_off1_eq i ⟨1, by decide⟩) (k0_off1_inb i hc 1) _ rfl _ rfl (by decide) (by decide) (by decide) (by decide) x
    · intro x
      exact Cert.Slab.piece_apply 16 1 1 (i 1).val (by decide) (by decide) (by omega) (View.read (Elt F) arg2.view f0)
        (k0_off1 i 1#32) (k0_off1_eq i ⟨1, by decide⟩) (k0_off1_inb i hc 1) _ rfl _ rfl (by decide) (by decide) (by decide) (by decide) x
    · intro x
      exact Cert.Slab.piece_apply 16 1 0 (i 1).val (by decide) (by decide) (by omega) (View.read (Elt F) arg2.view f0)
        (k0_off1 i 1#32) (k0_off1_eq i ⟨1, by decide⟩) (k0_off1_inb i hc 1) _ rfl _ rfl (by decide) (by decide) (by decide) (by decide) x
    · intro x
      exact Cert.Slab.piece_apply 16 0 2 (i 1).val (by decide) (by decide) (by omega) (View.read (Elt F) arg2.view f0)
        (k0_off1 i 0#32) (k0_off1_eq i ⟨0, by decide⟩) (k0_off1_inb i hc 0) _ rfl _ rfl (by decide) (by decide) (by decide) (by decide) x
    · intro x
      exact Cert.Slab.piece_apply 16 0 1 (i 1).val (by decide) (by decide) (by omega) (View.read (Elt F) arg2.view f0)
        (k0_off1 i 0#32) (k0_off1_eq i ⟨0, by decide⟩) (k0_off1_inb i hc 0) _ rfl _ rfl (by decide) (by decide) (by decide) (by decide) x
    · intro x
      exact Cert.Slab.piece_apply 16 0 0 (i 1).val (by decide) (by decide) (by omega) (View.read (Elt F) arg2.view f0)
        (k0_off1 i 0#32) (k0_off1_eq i ⟨0, by decide⟩) (k0_off1_inb i hc 0) _ rfl _ rfl (by decide) (by decide) (by decide) (by decide) x

set_option maxHeartbeats 1000000 in
/-- The body where the band is the last one: fourteen rows. From the input block x0 in the first buffer and anything in the second, it
    ends with the first unchanged and the second reading, on its first fourteen rows, the block function of x0 at the band. -/
theorem sound_kernel_B (c : Dev nD) (E : Set ℕ) (i : grid0.Coords) (hc : k0_cond2 i = 1#1) (hc2 : ¬ k0_cond1 i = 1#1) (hi : (i 1).val = 3)
    (arg2 : Memref sig .tc .vmem S1x64x64x256 .f32) (harg2 : arg2.IsWhole) (arg3 : Memref sig .tc .vmem S1x16x62x2304 .f32) (harg3 : arg3.IsWhole)
    (x0 : Vec F S1x64x64x256 .f32) (K : PUnit → sProp 𝕄) :
    iprop(owns (c : Thread nD τ) arg2 fullShare x0 ∗ (∃ d, owns (c : Thread nD τ) arg3 fullShare d)
        ∗ (iprop(owns (c : Thread nD τ) arg2 fullShare x0
            ∗ (∃ f, ⌜∀ j : S1x16x62x2304.Idx, (j 1).val < 14 → View.read (Elt F) arg3.view f j = Cert.Slab.blockFn x0 (i 1).val j⌝
                ∗ View.loc (c : Thread nD τ) arg3.view ↦[arg3.view.set]{fullShare} f)) -∗ K ⟨⟩))
      ⊢ wp frame (wpE (defs₀ (F := F)) Variants.none c none) E (cc0__gather_kernel i arg2 harg2 arg3 harg3) K := by
  simp only [cc0__gather_kernel_eq_skeleton]; unfold cc0__gather_kernel_skel
  unfold owns
  iintro ⟨⟨%f0, %hf0, H0⟩, ⟨%d1, %f1, -, H1⟩, Hk⟩
  subst hf0
  sl_exec (disch := first | exact hc | exact hc2)
  sl_step
  iapply Hk
  isplitl [H0]
  · iexists f0; isplitr; · ipureintro; rfl
    iexact H0
  iexists _; isplitr
  swap; · iexact H1
  ipureintro
  intro j hj1

  sl_unfold_run_names
  refine Cert.Slab.read_writes_of_pieces _ _ _ j _ ?_ ?_
  · have j3 : (j 3).val < 2304 := (j 3).isLt
    obtain ⟨k, hk9, hlo, hhi⟩ : ∃ k, k < 9 ∧ 256 * k ≤ (j 3).val ∧ (j 3).val < 256 * k + 256 :=
      ⟨(j 3).val / 256, by omega, by omega, by omega⟩
    interval_cases k
    · refine ⟨_, List.Mem.tail _ (List.Mem.tail _ (List.Mem.tail _ (List.Mem.tail _ (List.Mem.tail _ (List.Mem.tail _ (List.Mem.tail _ (List.Mem.tail _ (List.Mem.head _)))))))), ?_⟩; exact Cert.Slab.mem_piece 14 0 _ rfl (by decide) j hj1 hlo hhi
    · refine ⟨_, List.Mem.tail _ (List.Mem.tail _ (List.Mem.tail _ (List.Mem.tail _ (List.Mem.tail _ (List.Mem.tail _ (List.Mem.tail _ (List.Mem.head _))))))), ?_⟩; exact Cert.Slab.mem_piece 14 1 _ rfl (by decide) j hj1 hlo hhi
    · refine ⟨_, List.Mem.tail _ (List.Mem.tail _ (List.Mem.tail _ (List.Mem.tail _ (List.Mem.tail _ (List.Mem.tail _ (List.Mem.head _)))))), ?_⟩; exact Cert.Slab.mem_piece 14 2 _ rfl (by decide) j hj1 hlo hhi
    · refine ⟨_, List.Mem.tail _ (List.Mem.tail _ (List.Mem.tail _ (List.Mem.tail _ (List.Mem.tail _ (List.Mem.head _))))), ?_⟩; exact Cert.Slab.mem_piece 14 3 _ rfl (by decide) j hj1 hlo hhi
    · refine ⟨_, List.Mem.tail _ (List.Mem.tail _ (List.Mem.tail _ (List.Mem.tail _ (List.Mem.head _)))), ?_⟩; exact Cert.Slab.mem_piece 14 4 _ rfl (by decide) j hj1 hlo hhi
    · refine ⟨_, List.Mem.tail _ (List.Mem.tail _ (List.Mem.tail _ (List.Mem.head _))), ?_⟩; exact Cert.Slab.mem_piece 14 5 _ rfl (by decide) j hj1 hlo hhi
    · refine ⟨_, List.Mem.tail _ (List.Mem.tail _ (List.Mem.head _)), ?_⟩; exact Cert.Slab.mem_piece 14 6 _ rfl (by decide) j hj1 hlo hhi
    · refine ⟨_, List.Mem.tail _ (List.Mem.head _), ?_⟩; exact Cert.Slab.mem_piece 14 7 _ rfl (by decide) j hj1 hlo hhi
    · refine ⟨_, List.Mem.head _, ?_⟩; exact Cert.Slab.mem_piece 14 8 _ rfl (by decide) j hj1 hlo hhi
  · intro p hp
    simp only [List.mem_cons, List.mem_nil_iff, _root_.or_false] at hp
    rcases hp with rfl | rfl | rfl | rfl | rfl | rfl | rfl | rfl | rfl
    · intro x
      exact Cert.Slab.piece_apply 14 2 2 (i 1).val (by decide) (by decide) (by omega) (View.read (Elt F) arg2.view f0)
        (k0_off2 i 2#32) (k0_off2_eq i ⟨2, by decide⟩) (k0_off2_inb i hc 2) _ rfl _ rfl (by decide) (by decide) (by decide) (by decide) x
    · intro x
      exact Cert.Slab.piece_apply 14 2 1 (i 1).val (by decide) (by decide) (by omega) (View.read (Elt F) arg2.view f0)
        (k0_off2 i 2#32) (k0_off2_eq i ⟨2, by decide⟩) (k0_off2_inb i hc 2) _ rfl _ rfl (by decide) (by decide) (by decide) (by decide) x
    · intro x
      exact Cert.Slab.piece_apply 14 2 0 (i 1).val (by decide) (by decide) (by omega) (View.read (Elt F) arg2.view f0)
        (k0_off2 i 2#32) (k0_off2_eq i ⟨2, by decide⟩) (k0_off2_inb i hc 2) _ rfl _ rfl (by decide) (by decide) (by decide) (by decide) x
    · intro x
      exact Cert.Slab.piece_apply 14 1 2 (i 1).val (by decide) (by decide) (by omega) (View.read (Elt F) arg2.view f0)
        (k0_off2 i 1#32) (k0_off2_eq i ⟨1, by decide⟩) (k0_off2_inb i hc 1) _ rfl _ rfl (by decide) (by decide) (by decide) (by decide) x
    · intro x
      exact Cert.Slab.piece_apply 14 1 1 (i 1).val (by decide) (by decide) (by omega) (View.read (Elt F) arg2.view f0)
        (k0_off2 i 1#32) (k0_off2_eq i ⟨1, by decide⟩) (k0_off2_inb i hc 1) _ rfl _ rfl (by decide) (by decide) (by decide) (by decide) x
    · intro x
      exact Cert.Slab.piece_apply 14 1 0 (i 1).val (by decide) (by decide) (by omega) (View.read (Elt F) arg2.view f0)
        (k0_off2 i 1#32) (k0_off2_eq i ⟨1, by decide⟩) (k0_off2_inb i hc 1) _ rfl _ rfl (by decide) (by decide) (by decide) (by decide) x
    · intro x
      exact Cert.Slab.piece_apply 14 0 2 (i 1).val (by decide) (by decide) (by omega) (View.read (Elt F) arg2.view f0)
        (k0_off2 i 0#32) (k0_off2_eq i ⟨0, by decide⟩) (k0_off2_inb i hc 0) _ rfl _ rfl (by decide) (by decide) (by decide) (by decide) x
    · intro x
      exact Cert.Slab.piece_apply 14 0 1 (i 1).val (by decide) (by decide) (by omega) (View.read (Elt F) arg2.view f0)
        (k0_off2 i 0#32) (k0_off2_eq i ⟨0, by decide⟩) (k0_off2_inb i hc 0) _ rfl _ rfl (by decide) (by decide) (by decide) (by decide) x
    · intro x
      exact Cert.Slab.piece_apply 14 0 0 (i 1).val (by decide) (by decide) (by omega) (View.read (Elt F) arg2.view f0)
        (k0_off2 i 0#32) (k0_off2_eq i ⟨0, by decide⟩) (k0_off2_inb i hc 0) _ rfl _ rfl (by decide) (by decide) (by decide) (by decide) x

/-! ## The grid and the windows, decided once over the 32 points -/

/-- The first branch is taken on the bands q ≤ 2, the second on the band q = 3. -/
theorem cond_facts : ∀ i : grid0.Coords, (k0_cond1 i = 1#1 ↔ (i 1).val ≤ 2) ∧ (k0_cond2 i = 1#1 ↔ (i 1).val = 3) := by
  decide +kernel

/-- So the body stores into the output's buffer at every point. -/
theorem idle1 : ∀ t : Fin cfg0.N, cfg0.idle 1 (cfg0.grid.coords t) = false :=
  (by decide +kernel : ∀ t : Fin grid0.N, idle0 1 (grid0.coords t) = false)

/-- Point t is (b, q) = (t / 4, t % 4): the input window is at block (b, 0, 0, 0), the output window at block
    (b, q, 0, 0), and the part of the output block inside the array has 14 rows at q = 3 and 16 otherwise. -/
theorem win_facts : ∀ t : Fin cfg0.N,
    (win0_0.index t (0 : Fin 4) = t.val / 4 ∧ win0_0.index t (1 : Fin 4) = 0 ∧ win0_0.index t (2 : Fin 4) = 0 ∧ win0_0.index t (3 : Fin 4) = 0)
    ∧ (win0_1.index t (0 : Fin 4) = t.val / 4 ∧ win0_1.index t (1 : Fin 4) = t.val % 4 ∧ win0_1.index t (2 : Fin 4) = 0 ∧ win0_1.index t (3 : Fin 4) = 0)
    ∧ ((grid0.coords t 1).val = t.val % 4)
    ∧ ((win0_1.xblock (grid0.coords t)).size 0 = 1 ∧ (win0_1.xblock (grid0.coords t)).size 1 = (if t.val % 4 = 3 then 14 else 16)
        ∧ (win0_1.xblock (grid0.coords t)).size 2 = 62 ∧ (win0_1.xblock (grid0.coords t)).size 3 = 2304) :=
  (by decide +kernel : ∀ t : Fin grid0.N,
    (win0_0.index t (0 : Fin 4) = t.val / 4 ∧ win0_0.index t (1 : Fin 4) = 0 ∧ win0_0.index t (2 : Fin 4) = 0 ∧ win0_0.index t (3 : Fin 4) = 0)
    ∧ (win0_1.index t (0 : Fin 4) = t.val / 4 ∧ win0_1.index t (1 : Fin 4) = t.val % 4 ∧ win0_1.index t (2 : Fin 4) = 0 ∧ win0_1.index t (3 : Fin 4) = 0)
    ∧ ((grid0.coords t 1).val = t.val % 4)
    ∧ ((win0_1.xblock (grid0.coords t)).size 0 = 1 ∧ (win0_1.xblock (grid0.coords t)).size 1 = (if t.val % 4 = 3 then 14 else 16)
        ∧ (win0_1.xblock (grid0.coords t)).size 2 = 62 ∧ (win0_1.xblock (grid0.coords t)).size 3 = 2304))

/-- The output window's rectangle in the array at point t: where it starts and how much of the block lies inside. -/
theorem rect_facts : ∀ t : Fin cfg0.N, ∀ a : Fin 4,
    win0_1.index t a * win0_1.size a = (![t.val / 4, t.val % 4 * 16, 0, 0] : Fin 4 → Nat) a
    ∧ win0_1.xsize (grid0.coords t) a = (![1, if t.val % 4 = 3 then 14 else 16, 62, 2304] : Fin 4 → Nat) a :=
  (by decide +kernel : ∀ t : Fin grid0.N, ∀ a : Fin 4,
    win0_1.index t a * win0_1.size a = (![t.val / 4, t.val % 4 * 16, 0, 0] : Fin 4 → Nat) a
    ∧ win0_1.xsize (grid0.coords t) a = (![1, if t.val % 4 = 3 then 14 else 16, 62, 2304] : Fin 4 → Nat) a)

/-! ## Block t of the filled array is the block function of block t of the input -/

/-- Two indices of a rank-4 shape with equal coordinates are equal. -/
theorem idx4_ext {d : Fin 4 → Nat} (p q : (⟨4, d⟩ : Shape).Idx) (h0 : (p 0).val = (q 0).val) (h1 : (p 1).val = (q 1).val)
    (h2 : (p 2).val = (q 2).val) (h3 : (p 3).val = (q 3).val) : p = q := by
  funext a
  match a with
  | ⟨0, _⟩ => exact Fin.ext h0
  | ⟨1, _⟩ => exact Fin.ext h1
  | ⟨2, _⟩ => exact Fin.ext h2
  | ⟨3, _⟩ => exact Fin.ext h3

/-- Where an entry of the output window's block at point t sits in the array: block index times block size plus
    the coordinate in the block, axis by axis. -/
theorem emb1 (t : Fin cfg0.N) (y : (win0_1.xblock (grid0.coords t)).Idx) :
    (((win0_1.blk t).view.emb y) 0).val = win0_1.index t (0 : Fin 4) * 1 + 1 * (y 0).val
    ∧ (((win0_1.blk t).view.emb y) 1).val = win0_1.index t (1 : Fin 4) * 16 + 1 * (y 1).val
    ∧ (((win0_1.blk t).view.emb y) 2).val = win0_1.index t (2 : Fin 4) * 62 + 1 * (y 2).val
    ∧ (((win0_1.blk t).view.emb y) 3).val = win0_1.index t (3 : Fin 4) * 2304 + 1 * (y 3).val :=
  ⟨rfl, rfl, rfl, rfl⟩

/-- Where an entry of the input window's block at point t sits in the array. -/
theorem emb0 (t : Fin cfg0.N) (z : (win0_0.xblock (grid0.coords t)).Idx) :
    (((win0_0.blk t).view.emb z) 0).val = win0_0.index t (0 : Fin 4) * 1 + 1 * (z 0).val
    ∧ (((win0_0.blk t).view.emb z) 1).val = win0_0.index t (1 : Fin 4) * 64 + 1 * (z 1).val
    ∧ (((win0_0.blk t).view.emb z) 2).val = win0_0.index t (2 : Fin 4) * 64 + 1 * (z 2).val
    ∧ (((win0_0.blk t).view.emb z) 3).val = win0_0.index t (3 : Fin 4) * 256 + 1 * (z 3).val :=
  ⟨rfl, rfl, rfl, rfl⟩

/-- A read through the output window's block at point t is the array at the entry's place. -/
theorem read1 (G : S8x62x62x2304.Idx → Elt F .f32) (t : Fin cfg0.N) (y : (win0_1.xblock (grid0.coords t)).Idx) :
    (win0_1.blk t).view.read (Elt F) G y = G ((win0_1.blk t).view.emb y) := rfl
/-- A read through the input window's block at point t is the array at the entry's place. -/
theorem read0 (X : S8x64x64x256.Idx → Elt F .f32) (t : Fin cfg0.N) (z : (win0_0.xblock (grid0.coords t)).Idx) :
    (win0_0.blk t).view.read (Elt F) X z = X ((win0_0.blk t).view.emb z) := rfl

/-- For any input array X: the output window's block at point t of `regionFn X`, at an index y of the block's part
    inside the array, is the block function (at the point's band) of the input window's block at t, at y. Both sides
    read X at (b, 16·q + y1 + y3 / 768, y2 + (y3 / 256) % 3, y3 % 256), with (b, q) the point. -/
theorem blk_read_eq (X : S8x64x64x256.Idx → Elt F .f32) (t : Fin cfg0.N) (y : (win0_1.xblock (grid0.coords t)).Idx) :
    (win0_1.blk t).view.read (Elt F) (Cert.Slab.regionFn X) y
      = Cert.Slab.blockFn ((win0_0.blk t).view.read (Elt F) X) (grid0.coords t 1).val (win0_1.xinj (grid0.coords t) y) := by
  obtain ⟨⟨i00, i01, i02, i03⟩, ⟨i10, i11, i12, i13⟩, hq, ⟨s0, s1, s2, s3⟩⟩ := win_facts t
  generalize (grid0.coords t 1).val = q at hq ⊢
  have hY0 := lt_of_lt_of_eq (y 0).isLt s0
  have hY1 := Cert.Slab.split_bound _ _ (lt_of_lt_of_eq (y 1).isLt s1)
  have hY2 := lt_of_lt_of_eq (y 2).isLt s2
  have hY3 := lt_of_lt_of_eq (y 3).isLt s3
  obtain ⟨a0, a1, a2, a3⟩ := Cert.Slab.point_arith t.val q (y 0).val (y 1).val (y 2).val (y 3).val
    hq hY0 hY1 hY2 hY3
  obtain ⟨k', k0, k1, k2, k3⟩ : ∃ k' : (win0_0.xblock (grid0.coords t)).Idx, (k' 0).val = 0
      ∧ (k' 1).val = (16 * q + (y 1).val + (y 3).val / 768) % 64
      ∧ (k' 2).val = ((y 2).val + (y 3).val / 256 % 3) % 64 ∧ (k' 3).val = (y 3).val % 256 :=
    ⟨ix4 (0 : Fin 1) (⟨(16 * q + (y 1).val + (y 3).val / 768) % 64, Nat.mod_lt _ (by decide)⟩ : Fin 64)
      (⟨((y 2).val + (y 3).val / 256 % 3) % 64, Nat.mod_lt _ (by decide)⟩ : Fin 64)
      (⟨(y 3).val % 256, Nat.mod_lt _ (by decide)⟩ : Fin 256), rfl, rfl, rfl, rfl⟩
  obtain ⟨f0, f1, f2, f3⟩ := emb0 t k'
  obtain ⟨e0, e1, e2, e3⟩ := emb1 t y
  have hR : Cert.Slab.blockFn ((win0_0.blk t).view.read (Elt F) X) q (win0_1.xinj (grid0.coords t) y)
      = (win0_0.blk t).view.read (Elt F) X k' :=
    Cert.Slab.blockFn_eq _ _ _ k' k0 k1 k2 k3
  rw [hR, read1, read0]
  have j0 := e0.trans (congrArg (fun a => a * 1 + 1 * (y 0).val) i10)
  have j1 := e1.trans (congrArg (fun a => a * 16 + 1 * (y 1).val) i11)
  have j2 := e2.trans (congrArg (fun a => a * 62 + 1 * (y 2).val) i12)
  have j3 := e3.trans (congrArg (fun a => a * 2304 + 1 * (y 3).val) i13)
  refine Cert.Slab.regionFn_eq X _ _ ?_ ?_ ?_ ?_
  · exact (f0.trans (congrArg₂ (fun a b => a * 1 + 1 * b) i00 k0)).trans (a0.trans j0.symm)
  · exact (f1.trans (congrArg₂ (fun a b => a * 64 + 1 * b) i01 k1)).trans
      (a1.trans (congrArg₂ (fun a b => a + b / 768) j1 j3).symm)
  · exact (f2.trans (congrArg₂ (fun a b => a * 64 + 1 * b) i02 k2)).trans
      (a2.trans (congrArg₂ (fun a b => a + b / 256 % 3) j2 j3).symm)
  · exact (f3.trans (congrArg₂ (fun a b => a * 256 + 1 * b) i03 k3)).trans
      (a3.trans (congrArg (fun b => b % 256) j3).symm)

/-! ## The proof data -/

variable (m : (ℓ : Loc nD τ sig) → Buf (Elt F) ℓ) (ρ : Dev nD → PrngReg)

/-- The array the grid fills, as a function of the region's input array as the region finds it. -/
def garr (c : Dev nD) : S8x62x62x2304.Idx → Elt F .f32 := Cert.Slab.regionFn (V m c main_v0)

/-- Its block at point t, the part inside the array. -/
def oblk (c : Dev nD) (t : Fin cfg0.N) : (win0_1.xblock (grid0.coords t)).Idx → Elt F .f32 :=
  (win0_1.blk t).view.read (Elt F) (garr m c)

/-- Block t of `garr` is the block function of the input window's block at t. -/
theorem oblk_eq (c : Dev nD) (t : Fin cfg0.N) (y : (win0_1.xblock (grid0.coords t)).Idx) :
    oblk m c t y = Cert.Slab.blockFn (iblk m c 0 t) (grid0.coords t 1).val (win0_1.xinj (grid0.coords t) y) :=
  blk_read_eq (V m c main_v0) t y

/-- The proof data of the one pipeline on core c: the arrays as the region finds them; after the body at point t
    the input's buffer at its block and the output's at block t of `garr` (filled out, past the array's end, with a
    word nothing reads); the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (oblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits .f32 0#32) (oblk m c t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-- What the obligation asks of the output's buffer after the body: some contents that agree with `after` on the
    part written back. -/
theorem leaves1_eq (c : Dev nD) (t : Fin cfg0.N) :
    (dats m 0 c).leaves 1 t
      = iprop(∃ d, owns (c : Thread nD τ) (st0_1 t) fullShare
          (win0_1.fill (grid0.coords t) d (win0_1.cut (grid0.coords t) ((dats m 0 c).after 1 t)))) := by
  unfold Dat.leaves
  rw [idle1 t]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (dats m 0 c).leaves 1 t)

/-- Contents that agree with g on the part a transfer moves are their own filling with g. -/
theorem fill_self {α : Type} (i : grid0.Coords) (X : win0_1.block.Idx → α) (g : (win0_1.xblock i).Idx → α)
    (h : ∀ y, g y = X (win0_1.xinj i y)) : win0_1.fill i X g = X := by
  have e : g = win0_1.cut i X := funext h
  rw [e, win0_1.fill_cut]

/-- The body at any point: whichever case the point's band selects, the output's buffer ends reading, on the part
    written back, block t of `garr`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves1_eq]
  simp only [before0_0]
  rw [show (dats m 0 c).Φ t.succ = (dats m 0 c).Φ t.castSucc from rfl,
    show (dats m 0 c).owesAt () t.succ = (dats m 0 c).owesAt () t.castSucc from rfl,
    after0_0, after0_1, win0_1.cut_fill]
  have hcf := cond_facts (grid0.coords t)
  have hq4 : ((grid0.coords t) 1).val < 4 := ((grid0.coords t) 1).isLt
  have hxs := (win_facts t).2.2.2.2.1
  have hqt := (win_facts t).2.2.1
  iintro ⟨HΦ, Ho, ⟨%d0, H0⟩, ⟨%d1, H1⟩⟩
  by_cases hc : k0_cond1 (grid0.coords t) = 1#1
  · have hi : ((grid0.coords t) 1).val ≤ 2 := hcf.1.mp hc
    have hc2 : ¬ k0_cond2 (grid0.coords t) = 1#1 := fun h => Cert.Slab.band_not_last _ hi (hcf.2.mp h)
    iapply (sound_kernel_A c Set.univ (grid0.coords t) hc hc2 hi _ _ _ _ (iblk m c 0 t) _)
    isplitl [H0]; · iexact H0
    isplitl [H1]; · iexists _; iexact H1
    iintro ⟨H0, ⟨%f, %hf, H1⟩⟩
    isplitl [HΦ]; · iexact HΦ
    isplitl [Ho]; · iexact Ho
    isplitl [H0]; · iexact H0
    iexists (View.read (Elt F) (st0_1 t).view f)
    rw [fill_self (grid0.coords t) _ (oblk m c t) (fun y => (oblk_eq m c t y).trans (hf _).symm)]
    unfold owns
    iexists f; isplitr; · ipureintro; rfl
    iexact H1
  · have hi : ((grid0.coords t) 1).val = 3 := Cert.Slab.band_last _ hq4 (hcf.1.not.mp hc)
    have hc2 : k0_cond2 (grid0.coords t) = 1#1 := hcf.2.mpr hi
    iapply (sound_kernel_B c Set.univ (grid0.coords t) hc2 hc hi _ _ _ _ (iblk m c 0 t) _)
    isplitl [H0]; · iexact H0
    isplitl [H1]; · iexists _; iexact H1
    iintro ⟨H0, ⟨%f, %hf, H1⟩⟩
    isplitl [HΦ]; · iexact HΦ
    isplitl [Ho]; · iexact Ho
    isplitl [H0]; · iexact H0
    iexists (View.read (Elt F) (st0_1 t).view f)
    have h3 : t.val % 4 = 3 := hqt.symm.trans hi
    rw [fill_self (grid0.coords t) _ (oblk m c t) (fun y => (oblk_eq m c t y).trans (hf _ (by
      have y1 := lt_of_lt_of_eq (y 1).isLt hxs
      rw [if_pos h3] at y1
      exact y1)).symm)]
    unfold owns
    iexists f; isplitr; · ipureintro; rfl
    iexact H1

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, with every array of the pipeline at what the proof data computes
    and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its argument unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-! ## The filled array after the run -/

/-- What point t writes back is block t of `garr`. -/
theorem flushed1 (c : Dev nD) (t : Fin cfg0.N) :
    (dats m 0 c).flushed 1 t = (win0_1.blk t).view.read (Elt F) (garr m c) := by
  show win0_1.cut (grid0.coords t) ((dats m 0 c).after 1 t) = _
  rw [after0_1, win0_1.cut_fill]; rfl

/-- Every entry of the array lies in the block of the point (b, oh / 16). -/
theorem cover1 (i : S8x62x62x2304.Idx) :
    ∃ t : Fin cfg0.N, (cfg0.win 1).flush t = true ∧ i ∈ ((cfg0.win 1).blk t).view.set := by
  have h0 : (i 0).val < 8 := (i 0).isLt
  have h1 : (i 1).val < 62 := (i 1).isLt
  have h2 : (i 2).val < 62 := (i 2).isLt
  have h3 : (i 3).val < 2304 := (i 3).isLt
  obtain ⟨t, ht⟩ : ∃ t : Fin cfg0.N, t.val = 4 * (i 0).val + (i 1).val / 16 :=
    ⟨⟨4 * (i 0).val + (i 1).val / 16, by show _ < 32; omega⟩, rfl⟩
  obtain ⟨c0, c1, c2, c3⟩ := Cert.Slab.cover_arith t.val (i 0).val (i 1).val (i 2).val (i 3).val ht h0 h1 h2 h3
  refine ⟨t, flush0_1 t, ?_⟩
  show i ∈ ((View.whole main_v1).slice (win0_1.rect t)).set
  rw [View.set_slice_whole, Rect.mem_set_unit]
  intro a
  obtain ⟨ro, rs⟩ := rect_facts t a
  show win0_1.index t a * win0_1.size a ≤ (i a).val ∧ (i a).val < win0_1.index t a * win0_1.size a + win0_1.xsize (grid0.coords t) a
  rw [ro, rs]
  clear ro rs
  match a with
  | ⟨0, _⟩ => exact c0
  | ⟨1, _⟩ => exact c1
  | ⟨2, _⟩ => exact c2
  | ⟨3, _⟩ => exact c3

/-- After the run the filled array is `garr`: the 3 × 3 windows of the region's input array. -/
theorem final1 (c : Dev nD) : (dats m 0 c).arrAt 1 cfg0.N = garr m c :=
  (dats m 0 c).arrAt_eq_of_cover 1 (garr m c) (fun t _ => flushed1 m c t) cover1

end Cert.KernelIdeal.Hand

end
-- ==== Proof.KiValue.lean ====
/-
  The value of the idealized kernel's program: its result array, after every weakly fair run, is the array of 3 × 3
  windows of its argument, re-laid as [496, 8928, 16].

  The program is three stages: a re-laying of the argument x as [8, 64, 64, 256] (the region's input array), the grid
  (which fills an array with `Cert.Slab.regionFn` of that input: KiFrame's `final1`), and a re-laying of the filled
  array as [496, 8928, 16]. Composed, these are `Cert.Patches.out x` (`Cert.Slab.region_out`).
-/
import proofs.«104910_j33225867002119_2_alg».proof.Proof.KiFrame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The region's input array is the argument with its capsule and pose axes merged. -/
theorem V_main_v0 (c : Dev nD) : (V m c main_v0 : S8x64x64x256.Idx → Elt F .f32)
    = shapeCast S8x64x64x256 (m ((c : Thread nD τ).loc main_arg0)) shapeCasts_S8x64x64x16x16_S8x64x64x256 := by
  show StableHlo.after hostOps0 (fun b => m (c, b)) (Proc.devRef .tc main_v0) = _
  after_results
  rfl

/-- After the region, the result array is the filled array re-laid. -/
theorem tail_v2 (c : Dev nD) :
    (Pipeline.afterTail₀ cfgs (dats m) 0 (V0 m) [hostOps1] c main_v2 : S496x8928x16.Idx → Elt F .f32)
      = shapeCast S496x8928x16 (garr m c) shapeCasts_S8x62x62x2304_S496x8928x16 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = garr m c :=
    (Pipeline.withArrays_arr spec0 launch0.win.arr_inj c _ _ 1).trans (final1 m c)
  rw [e]
  rfl

/-- Every weakly fair run of the idealized kernel's program ends with its result array at the windows of its
    argument, re-laid, and its argument unchanged. -/
theorem run_value (h73 : Cert.Patches.S7.ShapeCasts Cert.Patches.So) :
    θ_run defs (onTc (τ := τ) (main (F := F))) ⟨m, fun _ => 0, ρ⟩ (fun r => ∀ c : Dev nD,
      r.2.mem ((c.tc : Thread nD τ).loc main_v2) = Cert.Patches.out (m ((c.tc : Thread nD τ).loc main_arg0)) h73
      ∧ r.2.mem ((c.tc : Thread nD τ).loc main_arg0) = m ((c.tc : Thread nD τ).loc main_arg0)) :=
  (θ_run defs _ _).mono (fun r h c =>
      ⟨((h c).2 main_v2 (Pipeline.mem_restRefs_of main_v2 (by decide) (by decide))).trans
          ((tail_v2 m c).trans (by
            unfold garr
            rw [V_main_v0]
            exact Cert.Slab.region_out _ _ _ h73)),
        ((h c).2 main_arg0 (Pipeline.mem_restRefs_of main_arg0 (by decide) (by decide))).trans (W_main_arg0 m (dats m) c)⟩)
    (run_main m ρ)

end Cert.KernelIdeal.Hand

end
-- ==== Proof.RefStages.lean ====
/-
  The reference's host program, read as plain functions of arrays.

  The reference takes x of shape [8, 64, 64, 16, 16] and gathers it twice with a 62 x 3 table of integer indices:
  once along the row axis (result [8, 62, 3, 64, 16, 16]) and once along the column axis (result
  [8, 62, 3, 62, 3, 16, 16]); it then swaps axes 2 and 3 and re-lays the result as [496, 8928, 16].

  Each of the two gathers is the lowering of an indexed read with out-of-range protection: a negative index is
  shifted up by the axis length 64; the indices are laid out as [62, 3, 1]; a mask says which indices lie in
  [0, 63]; the array is gathered at the indices; and where the mask is off the result is replaced by a constant.
  This module names those pieces as functions (of the table and of the array), for any float values, so that the
  program's run can be stated as their composition and each piece can be read at an index separately.
-/
import proofs.«104910_j33225867002119_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The first dense table as an array: entry i is the literal at i's row-major position. -/
abbrev tbl0 : IVec S62x3 32 := fun i => lit0 (S62x3.rowMajor i)
/-- The second dense table as an array. -/
abbrev tbl1 : IVec S62x3 32 := fun i => lit1 (S62x3.rowMajor i)

/-- The table with each negative entry shifted up by 64, laid out as [62, 3, 1]. -/
abbrev nidx (t : IVec S62x3 32) : IVec S62x3x1 32 :=
  broadcastInDim S62x3x1 ![0, 1] bcast_S62x3_S62x3x1_0_1
    (select (cmpi .slt t (broadcastInDim S62x3 ![] bcast_S_S62x3 (constantI S_ 32 0#32)))
      (addi t (broadcastInDim S62x3 ![] bcast_S_S62x3 (constantI S_ 32 64#32))) t)

/-- Where the laid-out indices lie in [0, 63]: both comparisons, and-ed, then and-reduced over the unit axis. -/
abbrev inBounds (i5 : IVec S62x3x1 32) : IVec S62x3 1 :=
  Host.reduce IntOp.andi
    (andi (cmpi .sge i5 (broadcastInDim S62x3x1 ![] bcast_S_S62x3x1 (constantI S_ 32 0#32)))
      (cmpi .sle i5 (broadcastInDim S62x3x1 ![0, 1, 2] bcast_S1x1x1_S62x3x1_0_1_2
        (broadcastInDim S1x1x1 ![2] bcast_S1_S1x1x1_2 (constantI S1 32 63#32)))))
    (constantI S_ 1 1#1) reducesTo_S62x3x1_S62x3_d2 h_S_

/-- The first gather, along the row axis: [8, 64, 64, 16, 16] to [8, 62, 3, 64, 16, 16]. -/
abbrev take0 (x : S8x64x64x16x16.Idx → F .f32) (t : IVec S62x3 32) : S8x62x3x64x16x16.Idx → F .f32 :=
  select (broadcastInDim S8x62x3x64x16x16 ![1, 2] bcast_S62x3_S8x62x3x64x16x16_1_2 (inBounds (nidx t)))
    (Host.gather gather_S8x64x64x16x16_S62x3x1_S8x62x3x64x16x16_0345_1_n_n_1_2_81641616 x (nidx t))
    (broadcastInDim S8x62x3x64x16x16 ![] bcast_S_S8x62x3x64x16x16 (constant (F := F) S_ .f32 0x7FC00000#32))

/-- The second gather, along the column axis: [8, 62, 3, 64, 16, 16] to [8, 62, 3, 62, 3, 16, 16]. -/
abbrev take1 (y : S8x62x3x64x16x16.Idx → F .f32) (t : IVec S62x3 32) : S8x62x3x62x3x16x16.Idx → F .f32 :=
  select (broadcastInDim S8x62x3x62x3x16x16 ![3, 4] bcast_S62x3_S8x62x3x62x3x16x16_3_4 (inBounds (nidx t)))
    (Host.gather gather_S8x62x3x64x16x16_S62x3x1_S8x62x3x62x3x16x16_01256_3_n_n_3_2_862311616 y (nidx t))
    (broadcastInDim S8x62x3x62x3x16x16 ![] bcast_S_S8x62x3x62x3x16x16 (constant (F := F) S_ .f32 0x7FC00000#32))

/-- Both gathers, then axes 2 and 3 swapped: shape [8, 62, 62, 3, 3, 16, 16]. -/
abbrev windows (x : S8x64x64x16x16.Idx → F .f32) : S8x62x62x3x3x16x16.Idx → F .f32 :=
  transpose S8x62x62x3x3x16x16 [0, 1, 3, 2, 4, 5, 6] (take1 (take0 x tbl0) tbl1)
    transposes_S8x62x3x62x3x16x16_S8x62x62x3x3x16x16_0_1_3_2_4_5_6

/-- The whole reference: the windows re-laid as [496, 8928, 16]. -/
abbrev refOut (x : S8x64x64x16x16.Idx → F .f32) : S496x8928x16.Idx → F .f32 :=
  shapeCast S496x8928x16 (windows x) shapeCasts_S8x62x62x3x3x16x16_S496x8928x16

end Cert.ReferenceIdeal.RefValue

end
-- ==== Proof.RefOps.lean ====
/-
  The reference's host program as a straight line of operations, and its run.

  @main is two dense integer tables, two calls of an outlined indexed read (each 23 operations over the call's own
  buffers, one of them a nested call that is a single select), a transpose and a reshape: 50 operations once the
  calls are unfolded. The run of such a line is the fold of the operations' results over the buffers' contents at
  launch.
-/
import proofs.«104910_j33225867002119_2_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the two tables; the first indexed read into the buffers of
    @main's call 0 (its nested select into that call's own nested record); the second into call 1's; the
    transpose; the reshape. -/
abbrev ops : List (HloOp τ sig (Elt F)) :=
  [ nullary main_c (fun i => lit0 (S62x3.rowMajor i)),
    nullary main_c_0 (fun i => lit1 (S62x3.rowMajor i)),
    TRef.nullary main_call0.c (constantI S_ 32 0#32),
    TRef.unary main_call0.c main_call0.v0 (broadcastInDim S62x3 ![] bcast_S_S62x3),
    TRef.binary (.of main_c) main_call0.v0 main_call0.v1 (cmpi .slt),
    TRef.nullary main_call0.c_0 (constantI S_ 32 64#32),
    TRef.unary main_call0.c_0 main_call0.v2 (broadcastInDim S62x3 ![] bcast_S_S62x3),
    TRef.binary (.of main_c) main_call0.v2 main_call0.v3 addi,
    TRef.ternary main_call0.v1 main_call0.v3 (.of main_c) main_call0.call0.v0 select,
    TRef.unary main_call0.call0.v0 main_call0.v5 (broadcastInDim S62x3x1 ![0, 1] bcast_S62x3_S62x3x1_0_1),
    TRef.nullary main_call0.c_1 (constantI S1 32 63#32),
    TRef.nullary main_call0.c_2 (constantI S_ 32 0#32),
    TRef.unary main_call0.c_2 main_call0.v6 (broadcastInDim S62x3x1 ![] bcast_S_S62x3x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S62x3x1 ![0, 1, 2] bcast_S1x1x1_S62x3x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S62x3x1_S62x3_d2 h_S_),
    TRef.binary (.of main_arg0) main_call0.v5 main_call0.v13 (fun x i => Host.gather gather_S8x64x64x16x16_S62x3x1_S8x62x3x64x16x16_0345_1_n_n_1_2_81641616 x i),
    TRef.unary main_call0.v12 main_call0.v14 (broadcastInDim S8x62x3x64x16x16 ![1, 2] bcast_S62x3_S8x62x3x64x16x16_1_2),
    TRef.nullary main_call0.cst (constant S_ .f32 0x7FC00000#32),
    TRef.unary main_call0.cst main_call0.v15 (broadcastInDim S8x62x3x64x16x16 ![] bcast_S_S8x62x3x64x16x16),
    TRef.ternary main_call0.v14 main_call0.v13 main_call0.v15 main_call0.v16 select,
    TRef.nullary main_call1.c (constantI S_ 32 0#32),
    TRef.unary main_call1.c main_call1.v0 (broadcastInDim S62x3 ![] bcast_S_S62x3),
    TRef.binary (.of main_c_0) main_call1.v0 main_call1.v1 (cmpi .slt),
    TRef.nullary main_call1.c_0 (constantI S_ 32 64#32),
    TRef.unary main_call1.c_0 main_call1.v2 (broadcastInDim S62x3 ![] bcast_S_S62x3),
    TRef.binary (.of main_c_0) main_call1.v2 main_call1.v3 addi,
    TRef.ternary main_call1.v1 main_call1.v3 (.of main_c_0) main_call1.call0.v0 select,
    TRef.unary main_call1.call0.v0 main_call1.v5 (broadcastInDim S62x3x1 ![0, 1] bcast_S62x3_S62x3x1_0_1),
    TRef.nullary main_call1.c_1 (constantI S1 32 63#32),
    TRef.nullary main_call1.c_2 (constantI S_ 32 0#32),
    TRef.unary main_call1.c_2 main_call1.v6 (broadcastInDim S62x3x1 ![] bcast_S_S62x3x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S62x3x1 ![0, 1, 2] bcast_S1x1x1_S62x3x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S62x3x1_S62x3_d2 h_S_),
    TRef.binary (.of main_v0) main_call1.v5 main_call1.v13 (fun x i => Host.gather gather_S8x62x3x64x16x16_S62x3x1_S8x62x3x62x3x16x16_01256_3_n_n_3_2_862311616 x i),
    TRef.unary main_call1.v12 main_call1.v14 (broadcastInDim S8x62x3x62x3x16x16 ![3, 4] bcast_S62x3_S8x62x3x62x3x16x16_3_4),
    TRef.nullary main_call1.cst (constant S_ .f32 0x7FC00000#32),
    TRef.unary main_call1.cst main_call1.v15 (broadcastInDim S8x62x3x62x3x16x16 ![] bcast_S_S8x62x3x62x3x16x16),
    TRef.ternary main_call1.v14 main_call1.v13 main_call1.v15 main_call1.v16 select,
    unary main_v1 main_v2 ((transpose S8x62x62x3x3x16x16 [0, 1, 3, 2, 4, 5, 6] · transposes_S8x62x3x62x3x16x16_S8x62x62x3x3x16x16_0_1_3_2_4_5_6) : (⟨S8x62x3x62x3x16x16, .f32⟩ : BufTy).Contents (Elt F) → (⟨S8x62x62x3x3x16x16, .f32⟩ : BufTy).Contents (Elt F)),
    reshape main_v2 main_v3 rfl shapeCasts_S8x62x62x3x3x16x16_S496x8928x16 ]

-- fifty binds re-associated: the rewrite under the chain recurses once per statement
set_option maxRecDepth 4096 in
/-- @main is that straight line: the called functions' definitions unfolded at their calls and the records at
    their fields, both sides are one chain of steps once sequencing is re-associated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., reshape_bufs_sub ..⟩

/-- For any float values, from any memory with zero counters: every weakly fair execution of @main terminates, and
    every final state has each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.RefFold.lean ====
/-
  What the fold of the reference's operations leaves in two buffers: at the result buffer, the composition of the
  pieces named in RefStages applied to the argument's contents; at the argument's buffer, what was there.

  The line is read in four stretches — the two tables, the first indexed read, the second, the transpose and the
  reshape — each for ARBITRARY earlier contents: the fold over a concatenation is the fold over the first list, then
  over the second. Within a stretch each operation's result at its own buffer is its function's value and at any
  other buffer what was there, and the typed references' transports are the identity at these literal references.
-/
import proofs.«104910_j33225867002119_2_alg».proof.Proof.RefOps
import proofs.«104910_j33225867002119_2_alg».proof.Proof.LibFoldStretch

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

open Cert.LibFoldStretch

/-- The two dense tables. -/
abbrev pre : List (HloOp τ sig (Elt F)) :=
  [ nullary main_c (fun i => lit0 (S62x3.rowMajor i)),
    nullary main_c_0 (fun i => lit1 (S62x3.rowMajor i)) ]

/-- The first indexed read, into the buffers of @main's call 0. -/
abbrev tk0 : List (HloOp τ sig (Elt F)) :=
  [
    TRef.nullary main_call0.c (constantI S_ 32 0#32),
    TRef.unary main_call0.c main_call0.v0 (broadcastInDim S62x3 ![] bcast_S_S62x3),
    TRef.binary (.of main_c) main_call0.v0 main_call0.v1 (cmpi .slt),
    TRef.nullary main_call0.c_0 (constantI S_ 32 64#32),
    TRef.unary main_call0.c_0 main_call0.v2 (broadcastInDim S62x3 ![] bcast_S_S62x3),
    TRef.binary (.of main_c) main_call0.v2 main_call0.v3 addi,
    TRef.ternary main_call0.v1 main_call0.v3 (.of main_c) main_call0.call0.v0 select,
    TRef.unary main_call0.call0.v0 main_call0.v5 (broadcastInDim S62x3x1 ![0, 1] bcast_S62x3_S62x3x1_0_1),
    TRef.nullary main_call0.c_1 (constantI S1 32 63#32),
    TRef.nullary main_call0.c_2 (constantI S_ 32 0#32),
    TRef.unary main_call0.c_2 main_call0.v6 (broadcastInDim S62x3x1 ![] bcast_S_S62x3x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S62x3x1 ![0, 1, 2] bcast_S1x1x1_S62x3x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S62x3x1_S62x3_d2 h_S_),
    TRef.binary (.of main_arg0) main_call0.v5 main_call0.v13 (fun x i => Host.gather gather_S8x64x64x16x16_S62x3x1_S8x62x3x64x16x16_0345_1_n_n_1_2_81641616 x i),
    TRef.unary main_call0.v12 main_call0.v14 (broadcastInDim S8x62x3x64x16x16 ![1, 2] bcast_S62x3_S8x62x3x64x16x16_1_2),
    TRef.nullary main_call0.cst (constant S_ .f32 0x7FC00000#32),
    TRef.unary main_call0.cst main_call0.v15 (broadcastInDim S8x62x3x64x16x16 ![] bcast_S_S8x62x3x64x16x16),
    TRef.ternary main_call0.v14 main_call0.v13 main_call0.v15 main_call0.v16 select ]

/-- The second indexed read, into the buffers of @main's call 1. -/
abbrev tk1 : List (HloOp τ sig (Elt F)) :=
  [
    TRef.nullary main_call1.c (constantI S_ 32 0#32),
    TRef.unary main_call1.c main_call1.v0 (broadcastInDim S62x3 ![] bcast_S_S62x3),
    TRef.binary (.of main_c_0) main_call1.v0 main_call1.v1 (cmpi .slt),
    TRef.nullary main_call1.c_0 (constantI S_ 32 64#32),
    TRef.unary main_call1.c_0 main_call1.v2 (broadcastInDim S62x3 ![] bcast_S_S62x3),
    TRef.binary (.of main_c_0) main_call1.v2 main_call1.v3 addi,
    TRef.ternary main_call1.v1 main_call1.v3 (.of main_c_0) main_call1.call0.v0 select,
    TRef.unary main_call1.call0.v0 main_call1.v5 (broadcastInDim S62x3x1 ![0, 1] bcast_S62x3_S62x3x1_0_1),
    TRef.nullary main_call1.c_1 (constantI S1 32 63#32),
    TRef.nullary main_call1.c_2 (constantI S_ 32 0#32),
    TRef.unary main_call1.c_2 main_call1.v6 (broadcastInDim S62x3x1 ![] bcast_S_S62x3x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S62x3x1 ![0, 1, 2] bcast_S1x1x1_S62x3x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S62x3x1_S62x3_d2 h_S_),
    TRef.binary (.of main_v0) main_call1.v5 main_call1.v13 (fun x i => Host.gather gather_S8x62x3x64x16x16_S62x3x1_S8x62x3x62x3x16x16_01256_3_n_n_3_2_862311616 x i),
    TRef.unary main_call1.v12 main_call1.v14 (broadcastInDim S8x62x3x62x3x16x16 ![3, 4] bcast_S62x3_S8x62x3x62x3x16x16_3_4),
    TRef.nullary main_call1.cst (constant S_ .f32 0x7FC00000#32),
    TRef.unary main_call1.cst main_call1.v15 (broadcastInDim S8x62x3x62x3x16x16 ![] bcast_S_S8x62x3x62x3x16x16),
    TRef.ternary main_call1.v14 main_call1.v13 main_call1.v15 main_call1.v16 select ]

/-- The transpose and the reshape. -/
abbrev post : List (HloOp τ sig (Elt F)) :=
  [ unary main_v1 main_v2 ((transpose S8x62x62x3x3x16x16 [0, 1, 3, 2, 4, 5, 6] · transposes_S8x62x3x62x3x16x16_S8x62x62x3x3x16x16_0_1_3_2_4_5_6) : (⟨S8x62x3x62x3x16x16, .f32⟩ : BufTy).Contents (Elt F) → (⟨S8x62x62x3x3x16x16, .f32⟩ : BufTy).Contents (Elt F)),
    reshape main_v2 main_v3 rfl shapeCasts_S8x62x62x3x3x16x16_S496x8928x16 ]

/-- The line is the four stretches in order. -/
theorem ops_split : (ops : List (HloOp τ sig (Elt F))) = pre ++ (tk0 ++ (tk1 ++ post)) := rfl

/-! ## The tables' stretch -/

theorem pre_arg0 (W : Valuation τ sig (Elt F)) : after pre W (main_arg0 : DevRef τ sig) = W (main_arg0 : DevRef τ sig) := by
  after_results_simp
theorem pre_c (W : Valuation τ sig (Elt F)) : after pre W (main_c : DevRef τ sig) = tbl0 := by
  after_results_simp
  rfl
theorem pre_c_0 (W : Valuation τ sig (Elt F)) : after pre W (main_c_0 : DevRef τ sig) = tbl1 := by
  after_results_simp
  rfl

/-! ## The first read's stretch -/

set_option maxRecDepth 8192 in
set_option maxHeartbeats 1600000 in
theorem tk0_v0 (W : Valuation τ sig (Elt F)) :
    after tk0 W (main_v0 : DevRef τ sig) = take0 (W (main_arg0 : DevRef τ sig)) (W (main_c : DevRef τ sig)) := by
  after_results_simp
  rfl

set_option maxRecDepth 8192 in
theorem tk0_c_0 (W : Valuation τ sig (Elt F)) : after tk0 W (main_c_0 : DevRef τ sig) = W (main_c_0 : DevRef τ sig) := by
  after_results_simp

set_option maxRecDepth 8192 in
theorem tk0_arg0 (W : Valuation τ sig (Elt F)) : after tk0 W (main_arg0 : DevRef τ sig) = W (main_arg0 : DevRef τ sig) := by
  after_results_simp

/-! ## The second read's stretch -/

set_option maxRecDepth 8192 in
set_option maxHeartbeats 1600000 in
theorem tk1_v1 (W : Valuation τ sig (Elt F)) :
    after tk1 W (main_v1 : DevRef τ sig) = take1 (W (main_v0 : DevRef τ sig)) (W (main_c_0 : DevRef τ sig)) := by
  after_results_simp
  rfl

set_option maxRecDepth 8192 in
theorem tk1_arg0 (W : Valuation τ sig (Elt F)) : after tk1 W (main_arg0 : DevRef τ sig) = W (main_arg0 : DevRef τ sig) := by
  after_results_simp

/-! ## The last stretch -/

theorem post_v3 (W : Valuation τ sig (Elt F)) :
    after post W (main_v3 : DevRef τ sig)
      = shapeCast S496x8928x16 (transpose S8x62x62x3x3x16x16 [0, 1, 3, 2, 4, 5, 6] (W (main_v1 : DevRef τ sig))
          transposes_S8x62x3x62x3x16x16_S8x62x62x3x3x16x16_0_1_3_2_4_5_6) shapeCasts_S8x62x62x3x3x16x16_S496x8928x16 := by
  after_results_simp
  rfl

theorem post_arg0 (W : Valuation τ sig (Elt F)) : after post W (main_arg0 : DevRef τ sig) = W (main_arg0 : DevRef τ sig) := by
  after_results_simp

/-! ## The whole line -/

/-- At the result buffer the fold is the composition of the pieces. -/
theorem v3_eq (V : Valuation τ sig (Elt F)) :
    after ops V (main_v3 : DevRef τ sig) = refOut (V (main_arg0 : DevRef τ sig)) := by
  rw [ops_split, after_append, after_append, after_append, post_v3, tk1_v1, tk0_v0, tk0_c_0, pre_arg0, pre_c, pre_c_0]

/-- No operation writes the argument's buffer. -/
theorem arg0_eq (V : Valuation τ sig (Elt F)) :
    after ops V (main_arg0 : DevRef τ sig) = V (main_arg0 : DevRef τ sig) := by
  rw [ops_split, after_append, after_append, after_append, post_arg0, tk1_arg0, tk0_arg0, pre_arg0]

end Cert.ReferenceIdeal.RefValue

end
-- ==== Proof.RefTake.lean ====
/-
  One indexed read of the reference, read at an index.

  The table's entries lie in [0, 63]: no entry is negative, so the shift of negative entries leaves the table as it
  is; the in-bounds mask is 1 everywhere, so the final select returns the gathered value; and the gather's clamp of
  a start index into [0, 63] is the identity. Hence the first read at (b, oh, kh, w, c, d) is the array at
  (b, table(oh, kh), w, c, d), and the second at (b, oh, kh, ow, kw, c, d) is its array at (b, oh, kh, table(ow, kw), c, d).
  Both tables hold oh + kh at (oh, kh).
-/
import proofs.«104910_j33225867002119_2_alg».proof.Proof.RefStages
import Idealize.ShloMosaic.Lib.ValueIdxCoords
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## Rank-7 indices by coordinates -/

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun h => match h with | ⟨0, _⟩ => a | ⟨1, _⟩ => b | ⟨2, _⟩ => c | ⟨3, _⟩ => d | ⟨4, _⟩ => e | ⟨5, _⟩ => f | ⟨6, _⟩ => g
/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext a
  match a with
  | ⟨0, _⟩ => rfl | ⟨1, _⟩ => rfl | ⟨2, _⟩ => rfl | ⟨3, _⟩ => rfl | ⟨4, _⟩ => rfl | ⟨5, _⟩ => rfl | ⟨6, _⟩ => rfl

/-! ## The words: an index in [0, 63] -/

/-- For a 32-bit word holding n ≤ 63: it is not negative, it lies in [0, 63], and read signed and clamped into
    [0, 63] it is n. -/
theorem word_facts : ∀ n : Fin 64,
    IntOp.cmpi .slt (BitVec.ofNat 32 n.val) 0#32 = 0#1
    ∧ IntOp.andi (IntOp.cmpi .sge (BitVec.ofNat 32 n.val) 0#32) (IntOp.cmpi .sle (BitVec.ofNat 32 n.val) 63#32) = 1#1
    ∧ min (BitVec.ofNat 32 n.val).toInt.toNat (64 - 1) = n.val := by
  decide

/-! ## The tables -/

/-- The first table at row-major position k holds k / 3 + k % 3. -/
theorem lit0_eq : ∀ k : Fin 186, lit0 k = BitVec.ofNat 32 (k.val / 3 + k.val % 3) := by decide
/-- So does the second. -/
theorem lit1_eq : ∀ k : Fin 186, lit1 k = BitVec.ofNat 32 (k.val / 3 + k.val % 3) := by decide

/-- The first table at (oh, kh) holds oh + kh. -/
theorem tbl0_apply (oh : Fin 62) (kh : Fin 3) : tbl0 (ix2 oh kh) = BitVec.ofNat 32 (oh.val + kh.val) := by
  refine (lit0_eq _).trans (congrArg (BitVec.ofNat 32) ?_)
  have h : (S62x3.rowMajor (ix2 oh kh)).val = oh.val * 3 + kh.val := Shape.rowMajor_val_two (d := ![62, 3]) (ix2 oh kh)
  have := kh.isLt
  omega

/-- The second table at (ow, kw) holds ow + kw. -/
theorem tbl1_apply (ow : Fin 62) (kw : Fin 3) : tbl1 (ix2 ow kw) = BitVec.ofNat 32 (ow.val + kw.val) := by
  refine (lit1_eq _).trans (congrArg (BitVec.ofNat 32) ?_)
  have h : (S62x3.rowMajor (ix2 ow kw)).val = ow.val * 3 + kw.val := Shape.rowMajor_val_two (d := ![62, 3]) (ix2 ow kw)
  have := kw.isLt
  omega

/-! ## The laid-out indices and the mask -/

/-- Where the table holds n ≤ 63, the laid-out, shifted indices hold n too. -/
theorem nidx_apply (t : IVec S62x3 32) (oh : Fin 62) (kh : Fin 3) (z : Fin 1) (n : Fin 64)
    (ht : t (ix2 oh kh) = BitVec.ofNat 32 n.val) : nidx t (ix3 oh kh z) = BitVec.ofNat 32 n.val := by
  have hb : nidx t (ix3 oh kh z)
      = Scalar.select (IntOp.cmpi .slt (t (ix2 oh kh)) 0#32) (IntOp.addi (t (ix2 oh kh)) 64#32) (t (ix2 oh kh)) := by
    refine (broadcastInDim_apply _ _ _ (ix3 oh kh z) (ix2 oh kh) ?_).trans rfl
    intro a
    match a with
    | ⟨0, _⟩ => rfl
    | ⟨1, _⟩ => rfl
  rw [hb, ht, (word_facts n).1, select_zero]

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 (f a) = 1#1 := by rw [hf a]; decide
    rw [List.foldl_cons, h1]
    exact foldl_andi_ones f hf l

/-- A reduction by `and` from 1 of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

/-- A table is in range when each entry is a word holding some n ≤ 63. -/
def InRange (t : IVec S62x3 32) : Prop := ∀ (oh : Fin 62) (kh : Fin 3), ∃ n : Fin 64, t (ix2 oh kh) = BitVec.ofNat 32 n.val

/-- For a table in range the mask is 1 everywhere. -/
theorem inBounds_apply (t : IVec S62x3 32) (ht : InRange t) (j : S62x3.Idx) : inBounds (nidx t) j = 1#1 := by
  refine reduce_andi_ones _ _ _ _ (fun i5 => ?_) (fun _ => rfl) j
  obtain ⟨oh, kh, z, rfl⟩ : ∃ (oh : Fin 62) (kh : Fin 3) (z : Fin 1), i5 = ix3 oh kh z := ⟨i5 0, i5 1, i5 2, eq_ix3 i5⟩
  obtain ⟨n, hn⟩ := ht oh kh
  show IntOp.andi (IntOp.cmpi .sge (nidx t (ix3 oh kh z)) 0#32) (IntOp.cmpi .sle (nidx t (ix3 oh kh z)) 63#32) = 1#1
  rw [nidx_apply t oh kh z n hn]
  exact (word_facts n).2.1

theorem tbl0_inRange : InRange tbl0 := fun oh kh =>
  ⟨⟨oh.val + kh.val, by have := oh.isLt; have := kh.isLt; omega⟩, tbl0_apply oh kh⟩
theorem tbl1_inRange : InRange tbl1 := fun ow kw =>
  ⟨⟨ow.val + kw.val, by have := ow.isLt; have := kw.isLt; omega⟩, tbl1_apply ow kw⟩

/-! ## The gathers read at an index -/

local notation "D0" => gather_S8x64x64x16x16_S62x3x1_S8x62x3x64x16x16_0345_1_n_n_1_2_81641616
local notation "D1" => gather_S8x62x3x64x16x16_S62x3x1_S8x62x3x62x3x16x16_01256_3_n_n_3_2_862311616

/-- The first gather at (b, oh, kh, w, c, d), where the start index at (oh, kh, 0) is a word holding n ≤ 63: the
    operand at (b, n, w, c, d) — the start read signed and clamped into [0, 63] is n, the other axes are offsets. -/
theorem gather0_apply {α : Type} (x : S8x64x64x16x16.Idx → α) (idx : IVec S62x3x1 32)
    (b : Fin 8) (oh : Fin 62) (kh : Fin 3) (w : Fin 64) (c d : Fin 16) (n : Fin 64)
    (hidx : idx (ix3 oh kh u0) = BitVec.ofNat 32 n.val) :
    Host.gather D0 x idx (ix6 b oh kh w c d) = x (ix5 b n w c d) := by
  unfold Host.gather
  refine congrArg x (funext fun a => Fin.ext ?_)
  match a with
  | ⟨0, _⟩ =>
    show (D0).start _ idx (⟨0, by decide⟩ : Fin 5) + (D0).batchCoord _ (⟨0, by decide⟩ : Fin 5) + (D0).offCoord _ (⟨0, by decide⟩ : Fin 5) = b.val
    have hs : (D0).start (ix6 b oh kh w c d) idx (⟨0, by decide⟩ : Fin 5) = 0 := by
      unfold GatherDims.start; exact dif_neg (by decide)
    have hb : (D0).batchCoord (ix6 b oh kh w c d) (⟨0, by decide⟩ : Fin 5) = 0 := GatherDims.batchCoord_eq_zero _ _ _ List.not_mem_nil
    have ho : (D0).offCoord (ix6 b oh kh w c d) (⟨0, by decide⟩ : Fin 5) = b.val := by
      unfold GatherDims.offCoord; rw [dif_pos (by decide)]; rfl
    rw [hs, hb, ho]; omega
  | ⟨1, _⟩ =>
    show (D0).start _ idx (⟨1, by decide⟩ : Fin 5) + (D0).batchCoord _ (⟨1, by decide⟩ : Fin 5) + (D0).offCoord _ (⟨1, by decide⟩ : Fin 5) = n.val
    have hb : (D0).batchCoord (ix6 b oh kh w c d) (⟨1, by decide⟩ : Fin 5) = 0 := GatherDims.batchCoord_eq_zero _ _ _ List.not_mem_nil
    have ho : (D0).offCoord (ix6 b oh kh w c d) (⟨1, by decide⟩ : Fin 5) = 0 := by
      unfold GatherDims.offCoord; exact dif_neg (by decide)
    have hm : (⟨1, by decide⟩ : Fin 5) ∈ (D0).startIndexMap := by decide
    have hs : (D0).start (ix6 b oh kh w c d) idx (⟨1, by decide⟩ : Fin 5) = n.val := by
      unfold GatherDims.start
      rw [dif_pos hm]
      have hsi : (D0).siIdx (ix6 b oh kh w c d) ⟨List.idxOf (⟨1, by decide⟩ : Fin 5) (D0).startIndexMap, List.idxOf_lt_length_iff.2 hm⟩ = ix3 oh kh u0 := by
        funext b'
        refine Fin.ext ?_
        match b' with
        | ⟨0, _⟩ => rfl
        | ⟨1, _⟩ => rfl
        | ⟨2, _⟩ => rfl
      rw [hsi, hidx]
      exact (word_facts n).2.2
    rw [hs, hb, ho]; omega
  | ⟨2, _⟩ =>
    show (D0).start _ idx (⟨2, by decide⟩ : Fin 5) + (D0).batchCoord _ (⟨2, by decide⟩ : Fin 5) + (D0).offCoord _ (⟨2, by decide⟩ : Fin 5) = w.val
    have hs : (D0).start (ix6 b oh kh w c d) idx (⟨2, by decide⟩ : Fin 5) = 0 := by
      unfold GatherDims.start; exact dif_neg (by decide)
    have hb : (D0).batchCoord (ix6 b oh kh w c d) (⟨2, by decide⟩ : Fin 5) = 0 := GatherDims.batchCoord_eq_zero _ _ _ List.not_mem_nil
    have ho : (D0).offCoord (ix6 b oh kh w c d) (⟨2, by decide⟩ : Fin 5) = w.val := by
      unfold GatherDims.offCoord; rw [dif_pos (by decide)]; rfl
    rw [hs, hb, ho]; omega
  | ⟨3, _⟩ =>
    show (D0).start _ idx (⟨3, by decide⟩ : Fin 5) + (D0).batchCoord _ (⟨3, by decide⟩ : Fin 5) + (D0).offCoord _ (⟨3, by decide⟩ : Fin 5) = c.val
    have hs : (D0).start (ix6 b oh kh w c d) idx (⟨3, by decide⟩ : Fin 5) = 0 := by
      unfold GatherDims.start; exact dif_neg (by decide)
    have hb : (D0).batchCoord (ix6 b oh kh w c d) (⟨3, by decide⟩ : Fin 5) = 0 := GatherDims.batchCoord_eq_zero _ _ _ List.not_mem_nil
    have ho : (D0).offCoord (ix6 b oh kh w c d) (⟨3, by decide⟩ : Fin 5) = c.val := by
      unfold GatherDims.offCoord; rw [dif_pos (by decide)]; rfl
    rw [hs, hb, ho]; omega
  | ⟨4, _⟩ =>
    show (D0).start _ idx (⟨4, by decide⟩ : Fin 5) + (D0).batchCoord _ (⟨4, by decide⟩ : Fin 5) + (D0).offCoord _ (⟨4, by decide⟩ : Fin 5) = d.val
    have hs : (D0).start (ix6 b oh kh w c d) idx (⟨4, by decide⟩ : Fin 5) = 0 := by
      unfold GatherDims.start; exact dif_neg (by decide)
    have hb : (D0).batchCoord (ix6 b oh kh w c d) (⟨4, by decide⟩ : Fin 5) = 0 := GatherDims.batchCoord_eq_zero _ _ _ List.not_mem_nil
    have ho : (D0).offCoord (ix6 b oh kh w c d) (⟨4, by decide⟩ : Fin 5) = d.val := by
      unfold GatherDims.offCoord; rw [dif_pos (by decide)]; rfl
    rw [hs, hb, ho]; omega

/-- The second gather at (b, oh, kh, ow, kw, c, d), where the start index at (ow, kw, 0) is a word holding n ≤ 63:
    the operand at (b, oh, kh, n, c, d). -/
theorem gather1_apply {α : Type} (y : S8x62x3x64x16x16.Idx → α) (idx : IVec S62x3x1 32)
    (b : Fin 8) (oh : Fin 62) (kh : Fin 3) (ow : Fin 62) (kw : Fin 3) (c d : Fin 16) (n : Fin 64)
    (hidx : idx (ix3 ow kw u0) = BitVec.ofNat 32 n.val) :
    Host.gather D1 y idx (ix7 b oh kh ow kw c d) = y (ix6 b oh kh n c d) := by
  unfold Host.gather
  refine congrArg y (funext fun a => Fin.ext ?_)
  match a with
  | ⟨0, _⟩ =>
    show (D1).start _ idx (⟨0, by decide⟩ : Fin 6) + (D1).batchCoord _ (⟨0, by decide⟩ : Fin 6) + (D1).offCoord _ (⟨0, by decide⟩ : Fin 6) = b.val
    have hs : (D1).start (ix7 b oh kh ow kw c d) idx (⟨0, by decide⟩ : Fin 6) = 0 := by
      unfold GatherDims.start; exact dif_neg (by decide)
    have hb : (D1).batchCoord (ix7 b oh kh ow kw c d) (⟨0, by decide⟩ : Fin 6) = 0 := GatherDims.batchCoord_eq_zero _ _ _ List.not_mem_nil
    have ho : (D1).offCoord (ix7 b oh kh ow kw c d) (⟨0, by decide⟩ : Fin 6) = b.val := by
      unfold GatherDims.offCoord; rw [dif_pos (by decide)]; rfl
    rw [hs, hb, ho]; omega
  | ⟨1, _⟩ =>
    show (D1).start _ idx (⟨1, by decide⟩ : Fin 6) + (D1).batchCoord _ (⟨1, by decide⟩ : Fin 6) + (D1).offCoord _ (⟨1, by decide⟩ : Fin 6) = oh.val
    have hs : (D1).start (ix7 b oh kh ow kw c d) idx (⟨1, by decide⟩ : Fin 6) = 0 := by
      unfold GatherDims.start; exact dif_neg (by decide)
    have hb : (D1).batchCoord (ix7 b oh kh ow kw c d) (⟨1, by decide⟩ : Fin 6) = 0 := GatherDims.batchCoord_eq_zero _ _ _ List.not_mem_nil
    have ho : (D1).offCoord (ix7 b oh kh ow kw c d) (⟨1, by decide⟩ : Fin 6) = oh.val := by
      unfold GatherDims.offCoord; rw [dif_pos (by decide)]; rfl
    rw [hs, hb, ho]; omega
  | ⟨2, _⟩ =>
    show (D1).start _ idx (⟨2, by decide⟩ : Fin 6) + (D1).batchCoord _ (⟨2, by decide⟩ : Fin 6) + (D1).offCoord _ (⟨2, by decide⟩ : Fin 6) = kh.val
    have hs : (D1).start (ix7 b oh kh ow kw c d) idx (⟨2, by decide⟩ : Fin 6) = 0 := by
      unfold GatherDims.start; exact dif_neg (by decide)
    have hb : (D1).batchCoord (ix7 b oh kh ow kw c d) (⟨2, by decide⟩ : Fin 6) = 0 := GatherDims.batchCoord_eq_zero _ _ _ List.not_mem_nil
    have ho : (D1).offCoord (ix7 b oh kh ow kw c d) (⟨2, by decide⟩ : Fin 6) = kh.val := by
      unfold GatherDims.offCoord; rw [dif_pos (by decide)]; rfl
    rw [hs, hb, ho]; omega
  | ⟨3, _⟩ =>
    show (D1).start _ idx (⟨3, by decide⟩ : Fin 6) + (D1).batchCoord _ (⟨3, by decide⟩ : Fin 6) + (D1).offCoord _ (⟨3, by decide⟩ : Fin 6) = n.val
    have hb : (D1).batchCoord (ix7 b oh kh ow kw c d) (⟨3, by decide⟩ : Fin 6) = 0 := GatherDims.batchCoord_eq_zero _ _ _ List.not_mem_nil
    have ho : (D1).offCoord (ix7 b oh kh ow kw c d) (⟨3, by decide⟩ : Fin 6) = 0 := by
      unfold GatherDims.offCoord; exact dif_neg (by decide)
    have hm : (⟨3, by decide⟩ : Fin 6) ∈ (D1).startIndexMap := by decide
    have hs : (D1).start (ix7 b oh kh ow kw c d) idx (⟨3, by decide⟩ : Fin 6) = n.val := by
      unfold GatherDims.start
      rw [dif_pos hm]
      have hsi : (D1).siIdx (ix7 b oh kh ow kw c d) ⟨List.idxOf (⟨3, by decide⟩ : Fin 6) (D1).startIndexMap, List.idxOf_lt_length_iff.2 hm⟩ = ix3 ow kw u0 := by
        funext b'
        refine Fin.ext ?_
        match b' with
        | ⟨0, _⟩ => rfl
        | ⟨1, _⟩ => rfl
        | ⟨2, _⟩ => rfl
      rw [hsi, hidx]
      exact (word_facts n).2.2
    rw [hs, hb, ho]; omega
  | ⟨4, _⟩ =>
    show (D1).start _ idx (⟨4, by decide⟩ : Fin 6) + (D1).batchCoord _ (⟨4, by decide⟩ : Fin 6) + (D1).offCoord _ (⟨4, by decide⟩ : Fin 6) = c.val
    have hs : (D1).start (ix7 b oh kh ow kw c d) idx (⟨4, by decide⟩ : Fin 6) = 0 := by
      unfold GatherDims.start; exact dif_neg (by decide)
    have hb : (D1).batchCoord (ix7 b oh kh ow kw c d) (⟨4, by decide⟩ : Fin 6) = 0 := GatherDims.batchCoord_eq_zero _ _ _ List.not_mem_nil
    have ho : (D1).offCoord (ix7 b oh kh ow kw c d) (⟨4, by decide⟩ : Fin 6) = c.val := by
      unfold GatherDims.offCoord; rw [dif_pos (by decide)]; rfl
    rw [hs, hb, ho]; omega
  | ⟨5, _⟩ =>
    show (D1).start _ idx (⟨5, by decide⟩ : Fin 6) + (D1).batchCoord _ (⟨5, by decide⟩ : Fin 6) + (D1).offCoord _ (⟨5, by decide⟩ : Fin 6) = d.val
    have hs : (D1).start (ix7 b oh kh ow kw c d) idx (⟨5, by decide⟩ : Fin 6) = 0 := by
      unfold GatherDims.start; exact dif_neg (by decide)
    have hb : (D1).batchCoord (ix7 b oh kh ow kw c d) (⟨5, by decide⟩ : Fin 6) = 0 := GatherDims.batchCoord_eq_zero _ _ _ List.not_mem_nil
    have ho : (D1).offCoord (ix7 b oh kh ow kw c d) (⟨5, by decide⟩ : Fin 6) = d.val := by
      unfold GatherDims.offCoord; rw [dif_pos (by decide)]; rfl
    rw [hs, hb, ho]; omega

/-! ## The indexed reads at an index -/

variable {F : FTy → Type} [FloatOps F]

/-- The first read at (b, oh, kh, w, c, d), for a table in range holding n at (oh, kh): the array at (b, n, w, c, d). -/
theorem take0_apply (x : S8x64x64x16x16.Idx → F .f32) (t : IVec S62x3 32) (ht : InRange t)
    (b : Fin 8) (oh : Fin 62) (kh : Fin 3) (w : Fin 64) (c d : Fin 16) (n : Fin 64)
    (hn : t (ix2 oh kh) = BitVec.ofNat 32 n.val) :
    take0 x t (ix6 b oh kh w c d) = x (ix5 b n w c d) := by
  have hm : broadcastInDim S8x62x3x64x16x16 ![1, 2] bcast_S62x3_S8x62x3x64x16x16_1_2 (inBounds (nidx t)) (ix6 b oh kh w c d) = 1#1 := by
    refine (broadcastInDim_apply _ _ _ (ix6 b oh kh w c d) (ix2 oh kh) ?_).trans (inBounds_apply t ht _)
    intro a
    match a with
    | ⟨0, _⟩ => rfl
    | ⟨1, _⟩ => rfl
  show Scalar.select (broadcastInDim S8x62x3x64x16x16 ![1, 2] bcast_S62x3_S8x62x3x64x16x16_1_2 (inBounds (nidx t)) (ix6 b oh kh w c d))
      (Host.gather D0 x (nidx t) (ix6 b oh kh w c d)) _ = _
  rw [hm, select_one, gather0_apply x (nidx t) b oh kh w c d n (nidx_apply t oh kh u0 n hn)]

/-- The second read at (b, oh, kh, ow, kw, c, d), for a table in range holding n at (ow, kw): the array at
    (b, oh, kh, n, c, d). -/
theorem take1_apply (y : S8x62x3x64x16x16.Idx → F .f32) (t : IVec S62x3 32) (ht : InRange t)
    (b : Fin 8) (oh : Fin 62) (kh : Fin 3) (ow : Fin 62) (kw : Fin 3) (c d : Fin 16) (n : Fin 64)
    (hn : t (ix2 ow kw) = BitVec.ofNat 32 n.val) :
    take1 y t (ix7 b oh kh ow kw c d) = y (ix6 b oh kh n c d) := by
  have hm : broadcastInDim S8x62x3x62x3x16x16 ![3, 4] bcast_S62x3_S8x62x3x62x3x16x16_3_4 (inBounds (nidx t)) (ix7 b oh kh ow kw c d) = 1#1 := by
    refine (broadcastInDim_apply _ _ _ (ix7 b oh kh ow kw c d) (ix2 ow kw) ?_).trans (inBounds_apply t ht _)
    intro a
    match a with
    | ⟨0, _⟩ => rfl
    | ⟨1, _⟩ => rfl
  show Scalar.select (broadcastInDim S8x62x3x62x3x16x16 ![3, 4] bcast_S62x3_S8x62x3x62x3x16x16_3_4 (inBounds (nidx t)) (ix7 b oh kh ow kw c d))
      (Host.gather D1 y (nidx t) (ix7 b oh kh ow kw c d)) _ = _
  rw [hm, select_one, gather1_apply y (nidx t) b oh kh ow kw c d n (nidx_apply t ow kw u0 n hn)]

/-- The windows at (b, oh, ow, kh, kw, c, d): the input at (b, oh + kh, ow + kw, c, d). -/
theorem windows_apply (x : S8x64x64x16x16.Idx → F .f32)
    (b : Fin 8) (oh ow : Fin 62) (kh kw : Fin 3) (c d : Fin 16) :
    windows x (ix7 b oh ow kh kw c d)
      = x (ix5 b (⟨oh.val + kh.val, by have := oh.isLt; have := kh.isLt; omega⟩ : Fin 64)
            (⟨ow.val + kw.val, by have := ow.isLt; have := kw.isLt; omega⟩ : Fin 64) c d) := by
  have ht : windows x (ix7 b oh ow kh kw c d) = take1 (take0 x tbl0) tbl1 (ix7 b oh kh ow kw c d) := by
    refine transpose_apply _ _ _ (ix7 b oh ow kh kw c d) (ix7 b oh kh ow kw c d) ?_
    intro a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  have hoh : oh.val + kh.val < 64 := by have := oh.isLt; have := kh.isLt; omega
  have how : ow.val + kw.val < 64 := by have := ow.isLt; have := kw.isLt; omega
  rw [ht, take1_apply (take0 x tbl0) tbl1 tbl1_inRange b oh kh ow kw c d ⟨ow.val + kw.val, how⟩ (tbl1_apply ow kw),
    take0_apply x tbl0 tbl0_inRange b oh kh ⟨ow.val + kw.val, how⟩ c d ⟨oh.val + kh.val, hoh⟩ (tbl0_apply oh kh)]

end Cert.ReferenceIdeal.RefValue

end
-- ==== Proof.RefRun.lean ====
/-
  The reference's run, against the specification.

  Every weakly fair execution of the reference terminates with the result buffer holding the array of overlapping
  3 x 3 windows of the argument, re-laid as [496, 8928, 16], and the argument unchanged: the run of the straight
  line leaves at the result buffer the composition of the two indexed reads, the transpose and the reshape; read at
  (b, oh, ow, kh, kw, c, d) before the reshape, that composition is the argument at (b, oh + kh, ow + kw, c, d),
  which is the specification's array of windows; and the reshape is the specification's.
-/
import proofs.«104910_j33225867002119_2_alg».proof.Proof.RefFold
import proofs.«104910_j33225867002119_2_alg».proof.Proof.RefTake
import proofs.«104910_j33225867002119_2_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- Both reads and the transpose are the specification's array of windows. -/
theorem windows_eq_patches {F : FTy → Type} [FloatOps F] (x : S8x64x64x16x16.Idx → F .f32) :
    windows x = Cert.Patches.patches x := by
  funext j
  obtain ⟨b, oh, ow, kh, kw, c, d, rfl⟩ : ∃ (b : Fin 8) (oh ow : Fin 62) (kh kw : Fin 3) (c d : Fin 16),
      j = ix7 b oh ow kh kw c d := ⟨j 0, j 1, j 2, j 3, j 4, j 5, j 6, eq_ix7 j⟩
  rw [windows_apply]
  rfl

/-- The whole reference is the specification's result. -/
theorem refOut_eq {F : FTy → Type} [FloatOps F] (x : S8x64x64x16x16.Idx → F .f32) :
    refOut x = Cert.Patches.out x shapeCasts_S8x62x62x3x3x16x16_S496x8928x16 := by
  unfold Cert.Patches.out
  rw [← windows_eq_patches]

/-- From any memory with zero counters, every weakly fair execution of the reference terminates with its result the
    specification's function of its argument at launch, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
          = Cert.Patches.out (m ((c.tc : Thread nD τ).loc main_arg0)) shapeCasts_S8x62x62x3x3x16x16_S496x8928x16
      ∧ r.2.mem ((c.tc : Thread nD τ).loc main_arg0) = m ((c.tc : Thread nD τ).loc main_arg0) :=
  (θ_run defs _ _).mono (fun _ h c => ⟨(h c main_v3).trans ((v3_eq _).trans (refOut_eq _)),
      (h c main_arg0).trans (arg0_eq _)⟩)
    (run_main m ρ)

end Cert.ReferenceIdeal.RefValue

end
-- ==== Proof.lean ====
/-
  The certificate of an im2col-style gather: the kernel's program and its jnp reference both compute, from
  x : f32[8, 64, 64, 16, 16], the array of overlapping 3 × 3 windows of x — entry (b, oh, ow, kh, kw, c, d) is
  x (b, oh + kh, ow + kw, c, d) — listed row-major as [496, 8928, 16]. No float is ever computed with: every stage
  of both programs only moves entries, so the two results agree entry by entry whatever the entries are, and the
  precondition is not used.

  The kernel side: a re-laying of x as [8, 64, 64, 256], a grid of 8 × 4 points each copying nine shifted bands of
  one batch's slab into a [16, 62, 2304] block of the output (the last band overhanging the array by two rows, which
  are never written back), and a re-laying of the filled array (Proof/KFrame.lean and Proof/KiFrame.lean: the frame of
  the program at either reading of its floats and what the grid leaves; Proof/KiValue.lean: the result array).
  The reference side: two takes along the row and the column axis through constant index tables oh + kh and
  ow + kw, a transposition and a re-laying (Proof/RefRun.lean). Both results are `Cert.Patches.out x` (Proof/Spec.lean);
  the arithmetic that identifies the kernel's lanes with the window entries is Proof/Region.lean's `region_out`.
-/
import proofs.«104910_j33225867002119_2_alg».proof.Defs
import proofs.«104910_j33225867002119_2_alg».proof.Proof.Gen.Kernel
import proofs.«104910_j33225867002119_2_alg».proof.Proof.Gen.KernelIdeal
import proofs.«104910_j33225867002119_2_alg».proof.Proof.Gen.ReferenceIdeal
import proofs.«104910_j33225867002119_2_alg».proof.Proof.Gen.Pre_finite_inputs
import proofs.«104910_j33225867002119_2_alg».proof.Proof.KFrame
import proofs.«104910_j33225867002119_2_alg».proof.Proof.KiFrame
import proofs.«104910_j33225867002119_2_alg».proof.Proof.KiValue
import proofs.«104910_j33225867002119_2_alg».proof.Proof.RefRun
import Idealize.ShloMosaic.Adequacy
import Idealize.ShloMosaic.Init

noncomputable section

namespace Cert.Proof

open Idealize.ShloMosaic Idealize.SL.Sem

/-- The kernel's program, read bit for bit, runs and leaves its argument unchanged. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its argument unchanged: its value run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run m ρ)

/-- From memories that agree on x, both idealized programs end with their result at the windows of x, re-laid. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Patches.out (m ((c.tc : Thread Cert.KernelIdeal.nD Cert.KernelIdeal.τ).loc Cert.KernelIdeal.main_arg0))
      Cert.ReferenceIdeal.Gen.shapeCasts_S8x62x62x3x3x16x16_S496x8928x16,
    Cert.KernelIdeal.Hand.run_value (F := Ideal) m ρ _, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
